-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x50 : S_.BroadcastsInDim S128x50 (![] : Fin 0 → Fin S128x50.rank)
  reducesTo_S128x50_S_d0_1 : S128x50.ReducesTo [0, 1] S_
  bcast_S_S50 : S_.BroadcastsInDim S50 (![] : Fin 0 → Fin S50.rank)
  reducesTo_S50_S_d0 : S50.ReducesTo [0] S_

variable [Facts]

def fn_part3 {F : FTy → Type} [FloatOps F] (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x50 .f32) (main_arg12 : FVec F S50 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x50 .f32 := Host.absf main_arg11
  let main_cst_16 : FVec F S_ .f32 := constant S_ .f32 0x7F800000#32
  let main_v45 : FVec F S128x50 .f32 := broadcastInDim S128x50 ![] bcast_S_S128x50 main_cst_16
  let main_v46 : IVec S128x50 1 := cmpf .olt main_v44 main_v45
  let main_c_17 : IVec S_ 1 := constantI S_ 1 1#1
  let main_v47 : IVec S_ 1 := (fun x v => Host.reduce IntOp.andi x v reducesTo_S128x50_S_d0_1 h_S_) main_v46 main_c_17
  let main_v48 : IVec S_ 1 := andi main_v43 main_v47
  let main_v49 : FVec F S50 .f32 := Host.absf main_arg12
  let main_cst_18 : FVec F S_ .f32 := constant S_ .f32 0x7F800000#32
  let main_v50 : FVec F S50 .f32 := broadcastInDim S50 ![] bcast_S_S50 main_cst_18
  fn_part3 (F := F) main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x50 .f32) (main_arg12 : FVec F S50 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S64x128 .f32) (main_arg6 : FVec F S128x128 .f32) (main_arg7 : FVec F S128 .f32) (main_arg8 : FVec F S128x128 .f32) (main_arg9 : FVec F S128x128 .f32) (main_arg10 : FVec F S128 .f32) (main_arg11 : FVec F S128x50 .f32) (main_arg12 : FVec F S50 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S100000x1 : Shape := ⟨2, ![100000, 1]⟩
abbrev S64x1 : Shape := ⟨2, ![64, 1]⟩
abbrev S1x50 : Shape := ⟨2, ![1, 50]⟩
abbrev S64x50 : Shape := ⟨2, ![64, 50]⟩
abbrev S64 : Shape := ⟨1, ![64]⟩

abbrev nBuf : Space → Nat
  | .hbm => 65
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x50, .f32⟩
  | .hbm, ⟨12, _⟩ => ⟨S50, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .f32⟩
  | .hbm, ⟨48, _⟩ => ⟨S64x128, .f32⟩
  | .hbm, ⟨49, _⟩ => ⟨S100000x1, .i32⟩
  | .hbm, ⟨50, _⟩ => ⟨S64x128, .f32⟩
  | .hbm, ⟨51, _⟩ => ⟨S_, .f32⟩
  | .hbm, ⟨52, _⟩ => ⟨S100000x1, .f32⟩
  | .hbm, ⟨53, _⟩ => ⟨S_, .f32⟩
  | .hbm, ⟨54, _⟩ => ⟨S64x1, .f32⟩
  | .hbm, ⟨55, _⟩ => ⟨S100000x1, .i32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x128, .f32⟩
  | .hbm, ⟨61, _⟩ => ⟨S64x128, .f32⟩
  | .hbm, ⟨62, _⟩ => ⟨S1x128, .f32⟩
  | .hbm, ⟨63, _⟩ => ⟨S1x50, .f32⟩
  | .hbm, ⟨64, _⟩ => ⟨S64x50, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S64x128, .f32⟩
  | .local _ .vmem, ⟨19, _⟩ => ⟨S128x128, .f32⟩
  | .local _ .vmem, ⟨20, _⟩ => ⟨S1x128, .f32⟩
  | .local _ .vmem, ⟨21, _⟩ => ⟨S128x50, .f32⟩
  | .local _ .vmem, ⟨22, _⟩ => ⟨S1x50, .f32⟩
  | .local _ .vmem, ⟨23, _⟩ => ⟨S64x50, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x50 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x50 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  shapeCasts_S50_S1x50 : S50.ShapeCasts S1x50
  shapeCasts_S64x128_S64x128 : S64x128.ShapeCasts S64x128
  broadcasts_S1x128_S64x128 : S1x128.Broadcasts S64x128
  inb_S128x50_S128x50_0_0 : ∀ a, (![0, 0] : Fin 2 → Nat) a + S128x50.size a ≤ S128x50.size a
  h_S128x50 : 0 < S128x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S64x50 : S1x50.Broadcasts S64x50
  reduces_S64x50_S64 : S64x50.Reduces [1] S64
  shapeCasts_S64_S64x1 : S64.ShapeCasts S64x1
  broadcasts_S64x1_S64x50 : S64x1.Broadcasts S64x50
  inb_S64x50_S64x50_0_0 : ∀ a, (![0, 0] : Fin 2 → Nat) a + S64x50.size a ≤ S64x50.size a
  h_S64x50 : 0 < S64x50.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x128_S128x128_S64x128_1_0_0_1_n_n_wf : DotDims.WF S64x128 S128x128 S64x128 [1] [0] [0] [1] [] []
  dot_S64x128_S128x50_S64x50_1_0_0_1_n_n_wf : DotDims.WF S64x128 S128x50 S64x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S64x128.size a
  hwx2_0 : ∀ i : grid2.Coords, EltTy.bits .f32 = 32 ∨ (Rect.block (s := S64x128) S64x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x50.size a ≤ S128x50.size a
  hwx2_3 : ∀ i : grid2.Coords, EltTy.bits .f32 = 32 ∨ (Rect.block (s := S128x50) S128x50.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x50.size a ≤ S1x50.size a
  hwx2_4 : ∀ i : grid2.Coords, EltTy.bits .f32 = 32 ∨ (Rect.block (s := S1x50) S1x50.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x50.size a ≤ S64x50.size a
  hwx2_5 : ∀ i : grid2.Coords, EltTy.bits .f32 = 32 ∨ (Rect.block (s := S64x50) S64x50.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x50_S64x50_1_0_0_1_n_n : DotDims S64x128 S128x50 S64x50 where
  lhsContracting := [1]
  rhsContracting := [0]
  lhsNonContracting := [0]
  rhsNonContracting := [1]
  lhsBatch := []
  rhsBatch := []
  wf := dot_S64x128_S128x50_S64x50_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S64x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x50.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x50.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S64x50.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x50 : Shape := ⟨2, ![128, 50]⟩
abbrev S50 : Shape := ⟨1, ![50]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S64x1 : Shape := ⟨2, ![64, 1]⟩
abbrev S64x50 : Shape := ⟨2, ![64, 50]⟩
abbrev S1x50 : Shape := ⟨2, ![1, 50]⟩
abbrev S64 : Shape := ⟨1, ![64]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x50, .f32⟩
  | .hbm, ⟨12, _⟩ => ⟨S50, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S64x128, .f32⟩
  | .hbm, ⟨63, _⟩ => ⟨S100000x1, .i32⟩
  | .hbm, ⟨64, _⟩ => ⟨S64x128, .f32⟩
  | .hbm, ⟨65, _⟩ => ⟨S_, .f32⟩
  | .hbm, ⟨66, _⟩ => ⟨S100000x1, .f32⟩
  | .hbm, ⟨67, _⟩ => ⟨S_, .f32⟩
  | .hbm, ⟨68, _⟩ => ⟨S64x1, .f32⟩
  | .hbm, ⟨69, _⟩ => ⟨S100000x1, .i32⟩
  | .hbm, ⟨70, _⟩ => ⟨S64x1, .f32⟩
  | .hbm, ⟨71, _⟩ => ⟨S_, .f32⟩
  | .hbm, ⟨72, _⟩ => ⟨S64x1, .f32⟩
  | .hbm, ⟨73, _⟩ => ⟨S64x1, .f32⟩
  | .hbm, ⟨74, _⟩ => ⟨S64x128, .f32⟩
  | .hbm, ⟨75, _⟩ => ⟨S64x128, .f32⟩
  | .hbm, ⟨76, _⟩ => ⟨S64x128, .f32⟩
  | .hbm, ⟨77, _⟩ => ⟨S1x128, .f32⟩
  | .hbm, ⟨78, _⟩ => ⟨S64x128, .f32⟩
  | .hbm, ⟨79, _⟩ => ⟨S64x128, .f32⟩
  | .hbm, ⟨80, _⟩ => ⟨S_, .f32⟩
  | .hbm, ⟨81, _⟩ => ⟨S64x128, .f32⟩
  | .hbm, ⟨82, _⟩ => ⟨S64x128, .f32⟩
  | .hbm, ⟨83, _⟩ => ⟨S64x50, .f32⟩
  | .hbm, ⟨84, _⟩ => ⟨S1x50, .f32⟩
  | .hbm, ⟨85, _⟩ => ⟨S64x50, .f32⟩
  | .hbm, ⟨86, _⟩ => ⟨S64x50, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x50, .f32⟩
  | .hbm, ⟨94, _⟩ => ⟨S64x50, .f32⟩
  | .hbm, ⟨95, _⟩ => ⟨S64x50, .f32⟩
  | .hbm, ⟨96, _⟩ => ⟨S_, .f32⟩
  | .hbm, ⟨97, _⟩ => ⟨S64, .f32⟩
  | .hbm, ⟨98, _⟩ => ⟨S64x1, .f32⟩
  | .hbm, ⟨99, _⟩ => ⟨S64x50, .f32⟩
  | .hbm, ⟨100, _⟩ => ⟨S64x50, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S50_S1x50_1 : S50.BroadcastsInDim S1x50 (![1] : Fin 1 → Fin S1x50.rank)
  bcast_S1x50_S64x50_0_1 : S1x50.BroadcastsInDim S64x50 (![0, 1] : Fin 2 → Fin S64x50.rank)
  reducesTo_S64x50_S64_d1 : S64x50.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x50_0_1 : S64x1.BroadcastsInDim S64x50 (![0, 1] : Fin 2 → Fin S64x50.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x128_S128x128_S64x128_1_0_0_1_n_n_wf : DotDims.WF S64x128 S128x128 S64x128 [1] [0] [0] [1] [] []
  dot_S64x128_S128x50_S64x50_1_0_0_1_n_n_wf : DotDims.WF S64x128 S128x50 S64x50 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x50_S64x50_1_0_0_1_n_n : DotDims S64x128 S128x50 S64x50 where
  lhsContracting := [1]
  rhsContracting := [0]
  lhsNonContracting := [0]
  rhsNonContracting := [1]
  lhsBatch := []
  rhsBatch := []
  wf := dot_S64x128_S128x50_S64x50_1_0_0_1_n_n_wf

class Facts : Prop extends Facts₀ where

variable [Facts]
-- ==== Proof.KRun.lean ====
/-
  The kernel program's run with its result named. Every weakly fair execution of the whole program (host operations,
  three kernel regions, host operations between them) ends, without a fault, with the result buffer holding the contents
  the chain of segment boundaries assigns it (the last region's write-backs folded over what the host operations before
  it left), and with the argument arrays as launched.
-/
import proofs.«180137_j87625922773436_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Named

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«180137_j87625922773436_1_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibTileSoftmax.lean ====
/-
  Row tiles through a row-wise softmax, and the host's spelling of the same columns.

  With `IsTile r0 hr x X` (the T × C array x is rows [r0, r0 + T) of the M × C array X):
  * the maximum along each row of a tile from a starting value, kept as a T × 1 column, is the tile of the whole
    array's column of row maxima (`rowMax`, the fold of `max` over the row from that value) — the companion of the
    row sums kept as a column;
  * a difference and an exponential, entry by entry, keep tiles.
  On the whole array's side the host writes a column of row sums (or maxima) as a reduce over the second axis followed
  by a broadcast of the length-M vector along axis 0 into M × 1: that IS the column `rowSum` (or `rowMax`), whatever the
  initial value's rank-0 spelling, and a maximum taken once more with the starting value changes nothing.
-/
import proofs.«180137_j87625922773436_1_alg».proof.Proof.LibTileMore
import proofs.«180137_j87625922773436_1_alg».proof.Proof.LibRowOps

noncomputable section

namespace Cert.Tile

open Idealize.ShloMosaic Idealize.ShloMosaic.ValueIdx

/-- The maxima along the rows of an M × C array, each the fold of `max` over the row from `b`, kept as an M × 1 column. -/
def rowMax {M C : Nat} (b : EReal) (X : (⟨2, ![M, C]⟩ : Shape).Idx → EReal) : (⟨2, ![M, 1]⟩ : Shape).Idx → EReal :=
  fun i => (Finset.univ : Finset (Fin C)).fold max b (fun l => X (ix2 (n0 := M) (n1 := C) (i 0) l))

/-- Row a of the column of row maxima is the fold of `max` over row a. -/
theorem rowMax_apply {M C : Nat} (b : EReal) (X : (⟨2, ![M, C]⟩ : Shape).Idx → EReal) (a : Fin M) (q : Fin 1) :
    rowMax b X (ix2 a q) = (Finset.univ : Finset (Fin C)).fold max b (fun l => X (ix2 a l)) := rfl

variable {T M : Nat} {r0 : Nat} {hr : r0 + T ≤ M}

/-- The maximum along each row of a tile, kept as a T × 1 column, is the tile of the whole array's row maxima kept as
    an M × 1 column: row r0 + p of X is row p of x, entry by entry, and both folds start from the accumulator's value. -/
theorem laneMax {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.maximumf.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .maximumf [1] ⟨1, ![T]⟩ x acc h hφ hacc) hc)
      (rowMax (Ideal.ofBits .f32 acc) X) := by
  intro p q
  rw [RowOps.shapeCast_a_a1_apply _ hc p q, RowOps.rowMax_apply x acc h hφ hacc p, rowMax_apply]
  exact congrArg (fun f => Finset.fold max (Ideal.ofBits .f32 acc) f (Finset.univ : Finset (Fin C))) (funext fun k => hx p k)

section Pointwise
variable {C : Nat} {φ : FTy} {x y : (⟨2, ![T, C]⟩ : Shape).Idx → EReal} {X Y : (⟨2, ![M, C]⟩ : Shape).Idx → EReal}

/-- A kernel's vector difference, at the ideal values, subtracts entry by entry. -/
theorem vSub (hx : IsTile r0 hr x X) (hy : IsTile r0 hr y Y) :
    IsTile r0 hr (subf (F := Ideal) (φ := φ) x y) (fun i => X i - Y i) :=
  map₂ (fun a b => a - b) hx hy

/-- A kernel's vector exponential, at the ideal values, is the exponential entry by entry. -/
theorem vExp (hx : IsTile r0 hr x X) :
    IsTile r0 hr (exp (F := Ideal) (φ := φ) x) (fun i => Ideal.exp (X i)) :=
  map Ideal.exp hx

/-- A kernel's product with a splat of one value multiplies every entry by it. -/
theorem vScale (v : EReal) (hx : IsTile r0 hr x X) :
    IsTile r0 hr (mulf (F := Ideal) (φ := φ) x (broadcast ⟨2, ![T, C]⟩ v)) (fun i => X i * v) :=
  map (fun a => a * v) hx

end Pointwise

/-- A tile is a tile of anything the whole array equals. -/
theorem IsTile.congr {C : Nat} {x : (⟨2, ![T, C]⟩ : Shape).Idx → EReal} {X X' : (⟨2, ![M, C]⟩ : Shape).Idx → EReal}
    (hx : IsTile r0 hr x X) (e : X = X') : IsTile r0 hr x X' := e ▸ hx

/-! ## The host's spelling of the two columns -/

/-- A length-M vector broadcast along axis 0 into an M × 1 column reads, at (a, q), the vector at a. -/
theorem colOfVec_apply {M : Nat} (v : (⟨1, ![M]⟩ : Shape).Idx → EReal)
    (g : (⟨1, ![M]⟩ : Shape).BroadcastsInDim ⟨2, ![M, 1]⟩ ![0]) (a : Fin M) (q : Fin 1) :
    broadcastInDim ⟨2, ![M, 1]⟩ ![0] g v (ix2 a q) = v (ix1 a) := by
  refine broadcastInDim_apply _ g v (ix2 a q) (ix1 a) fun ax => ?_
  match ax with
  | ⟨0, _⟩ =>
    show a.val = if M = 1 then 0 else a.val
    split
    · have := a.isLt; omega
    · rfl

/-- The reduced index `a` of an M × C array with the coordinate `k` of the second axis put back is (a, k). -/
theorem lift_row2 {M C : Nat} (h : (⟨2, ![M, C]⟩ : Shape).Reduces [1] (⟨1, ![M]⟩ : Shape)) (a : Fin M)
    (k : Fin ((⟨2, ![M, C]⟩ : Shape).size 1)) : h.lift (ix1 a) k = ix2 a (⟨k.val, k.isLt⟩ : Fin C) := by
  funext c; apply Fin.ext
  fin_cases c <;> rfl

/-- The host's sum over the second axis from the initial value 0, kept as a column, is the column of row sums. -/
theorem hostRowSumCol {M C : Nat} {u : Shape} (X : FVec Ideal ⟨2, ![M, C]⟩ .f32) (init : u.Idx → Ideal .f32)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = 0)
    (g : (⟨1, ![M]⟩ : Shape).BroadcastsInDim ⟨2, ![M, 1]⟩ ![0]) :
    broadcastInDim ⟨2, ![M, 1]⟩ ![0] g (Host.reduceAdd X init h' hu) = rowSum X := by
  funext i
  obtain ⟨a, q, rfl⟩ : ∃ (a : Fin M) (q : Fin 1), i = ix2 a q := ⟨i 0, i 1, eq_ix2 i⟩
  rw [colOfVec_apply, rowSum_apply]
  show Ideal.hostReduceAdd h' X (init (Shape.Idx.first hu)) (ix1 a) = _
  rw [Ideal.hostReduceAdd_single h' h, hinit, zero_add]
  exact Finset.sum_congr rfl fun k _ => congrArg X (lift_row2 h a k)

/-- The host's maximum over the second axis from the initial value b, taken once more with b and kept as a column, is
    the column of row maxima from b. -/
theorem hostRowMaxCol {M C : Nat} {u : Shape} (X : FVec Ideal ⟨2, ![M, C]⟩ .f32) (init : u.Idx → Ideal .f32) (b : EReal)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = b) (w : FVec Ideal ⟨1, ![M]⟩ .f32) (hw : ∀ a, w a = b)
    (g : (⟨1, ![M]⟩ : Shape).BroadcastsInDim ⟨2, ![M, 1]⟩ ![0]) :
    broadcastInDim ⟨2, ![M, 1]⟩ ![0] g (maximumf (F := Ideal) w (Host.reduce FloatOps.maximumf X init h' hu)) = rowMax b X := by
  funext i
  obtain ⟨a, q, rfl⟩ : ∃ (a : Fin M) (q : Fin 1), i = ix2 a q := ⟨i 0, i 1, eq_ix2 i⟩
  rw [colOfVec_apply, rowMax_apply]
  show max (w (ix1 a)) (Host.reduce FloatOps.maximumf X init h' hu (ix1 a)) = _
  rw [hw, Host.reduce_eq_fold_single FloatOps.maximumf X init h' h hu (ix1 a), hinit]
  have e : (X ∘ h.lift (ix1 a)) = fun k => X (ix2 a (⟨k.val, k.isLt⟩ : Fin C)) := funext fun k => congrArg X (lift_row2 h a k)
  rw [e]
  exact RowOps.max_fold_max _ b _

end Cert.Tile

end
-- ==== Proof.LibHostLayers.lean ====
/-
  Row-wise layers of a dense network on whole M-row arrays of extended reals, written with the host's operations: a
  bias or scale vector repeated down the rows, a column repeated across the columns, the sum and the maximum of each
  row kept as a column (a reduce over the second axis followed by a broadcast into a column), a dense layer X · W + b,
  the mean over a row's features, a layer normalisation, a maximum with zero, the row-wise softmax, a row's Euclidean
  norm, a row divided by the larger of its norm and a tiny constant, and a row with its component along another row
  removed (one Gram–Schmidt step). Constants are broadcasts of rank-0 constants given by their f32 patterns. The side
  conditions of all these operations hold at every extent and are proved here once, so the definitions serve any
  batch size and feature count; a straight line of host operations computing the same values does so in the same words.
-/
import proofs.«180137_j87625922773436_1_alg».proof.Proof.LibTileMore

noncomputable section

namespace Cert.Spec

open Idealize.ShloMosaic Idealize.ShloMosaic.ValueIdx Cert.Tile

/-- An M × C array of extended reals (the ideal reading of an f32 array). -/
abbrev Mat (M C : Nat) : Type := FVec Ideal ⟨2, ![M, C]⟩ .f32
/-- A length-C vector of extended reals. -/
abbrev Vec1 (C : Nat) : Type := FVec Ideal ⟨1, ![C]⟩ .f32
/-- An M × K × C array of extended reals. -/
abbrev Cube (M K C : Nat) : Type := FVec Ideal ⟨3, ![M, K, C]⟩ .f32

/-! ## Side conditions, at every extent -/

theorem redTo (M C : Nat) : (⟨2, ![M, C]⟩ : Shape).ReducesTo [1] ⟨1, ![M]⟩ :=
  ⟨rfl, fun b => by match b with | ⟨0, _⟩ => rfl⟩

theorem red (M C : Nat) : (⟨2, ![M, C]⟩ : Shape).Reduces [1] ⟨1, ![M]⟩ :=
  ⟨rfl, Nat.one_pos, fun b => by match b with | ⟨0, _⟩ => rfl⟩

theorem numel0 : 0 < (⟨0, ![]⟩ : Shape).numel := by decide

/-- A length-C vector broadcasts along axis 1 into a 1 × C row. -/
theorem bidVecRow (C : Nat) : (⟨1, ![C]⟩ : Shape).BroadcastsInDim ⟨2, ![1, C]⟩ ![1] :=
  ⟨fun a b _ => Subsingleton.elim a b, fun a => by match a with | ⟨0, _⟩ => exact Or.inr rfl⟩

/-- A length-M vector broadcasts along axis 0 into an M × 1 column. -/
theorem bidVecCol (M : Nat) : (⟨1, ![M]⟩ : Shape).BroadcastsInDim ⟨2, ![M, 1]⟩ ![0] :=
  ⟨fun a b _ => Subsingleton.elim a b, fun a => by match a with | ⟨0, _⟩ => exact Or.inr rfl⟩

/-- A scalar broadcasts to a length-M vector. -/
theorem bidScalarVec (M : Nat) : (⟨0, ![]⟩ : Shape).BroadcastsInDim ⟨1, ![M]⟩ ![] :=
  ⟨fun a => a.elim0, fun a => a.elim0⟩

theorem inj02 : Function.Injective (![0, 2] : Fin 2 → Fin 3) := by decide
theorem inj012 : Function.Injective (![0, 1, 2] : Fin 3 → Fin 3) := by decide

/-- An M × C array broadcasts along axes (0, 2) into M × 1 × C. -/
theorem bidMid (M C : Nat) : (⟨2, ![M, C]⟩ : Shape).BroadcastsInDim ⟨3, ![M, 1, C]⟩ ![0, 2] :=
  ⟨inj02, fun a => by match a with | ⟨0, _⟩ => exact Or.inr rfl | ⟨1, _⟩ => exact Or.inr rfl⟩

/-- An M × 1 × C array broadcasts along (0, 1, 2) into M × K × C. -/
theorem bidMidRep (M K C : Nat) : (⟨3, ![M, 1, C]⟩ : Shape).BroadcastsInDim ⟨3, ![M, K, C]⟩ ![0, 1, 2] :=
  ⟨inj012, fun a => by match a with | ⟨0, _⟩ => exact Or.inr rfl | ⟨1, _⟩ => exact Or.inl rfl | ⟨2, _⟩ => exact Or.inr rfl⟩

variable {M : Nat}

/-! ## The building blocks, in the host's words -/

/-- The rank-0 constant of a 32-bit pattern. -/
def lit (b : BitVec 32) : FVec Ideal ⟨0, ![]⟩ .f32 := constant (F := Ideal) ⟨0, ![]⟩ .f32 b

/-- One value over an M × C array. -/
def splat (M C : Nat) (b : BitVec 32) : Mat M C := broadcastInDim ⟨2, ![M, C]⟩ ![] (bidScalar M C) (lit b)

/-- A length-C vector as a row, repeated down M rows. -/
def rows (M : Nat) {C : Nat} (b : Vec1 C) : Mat M C :=
  broadcastInDim ⟨2, ![M, C]⟩ ![0, 1] (bidRow M C) (broadcastInDim ⟨2, ![1, C]⟩ ![1] (bidVecRow C) b)

/-- An M × 1 column repeated across C columns. -/
def across {M : Nat} (C : Nat) (v : Mat M 1) : Mat M C := broadcastInDim ⟨2, ![M, C]⟩ ![0, 1] (bidCol M C) v

/-- The sum of each row, kept as an M × 1 column. -/
def sumCol {C : Nat} (X : Mat M C) : Mat M 1 :=
  broadcastInDim ⟨2, ![M, 1]⟩ ![0] (bidVecCol M)
    (Host.reduceAdd (F := Ideal) (axes := [1]) X (lit 0x00000000#32) (redTo M C) numel0)

/-- The maximum of each row from −∞, kept as an M × 1 column. -/
def maxCol {C : Nat} (X : Mat M C) : Mat M 1 :=
  broadcastInDim ⟨2, ![M, 1]⟩ ![0] (bidVecCol M)
    (maximumf (F := Ideal) (broadcastInDim ⟨1, ![M]⟩ ![] (bidScalarVec M) (lit 0xFF800000#32))
      (Host.reduce (axes := [1]) FloatOps.maximumf X (lit 0xFF800000#32) (redTo M C) numel0))

/-- X · W + b, the bias repeated down the rows. -/
def dense {K N : Nat} (X : Mat M K) (W : Mat K N) (b : Vec1 N) : Mat M N :=
  addf (Host.dotGeneral (F := Ideal) (DotDims.plain M K N) none X W) (rows M b)

/-- The mean of each row (the row sum divided by the count n, given as its f32 pattern), as a column. -/
def meanCol {C : Nat} (n : BitVec 32) (X : Mat M C) : Mat M 1 := Host.divf (sumCol X) (splat M 1 n)

/-- Each row with its mean removed. -/
def center {C : Nat} (n : BitVec 32) (X : Mat M C) : Mat M C := subf X (across C (meanCol n X))

/-- Layer normalisation over the features: (x − mean) · rsqrt(var + ε) · g + b, ε the f32 nearest 10⁻⁵. -/
def lnorm {C : Nat} (n : BitVec 32) (X : Mat M C) (g be : Vec1 C) : Mat M C :=
  addf (mulf (mulf (center n X)
      (across C (Host.rsqrt (addf (meanCol n (mulf (center n X) (center n X))) (splat M 1 0x3727C5AC#32)))))
    (rows M g)) (rows M be)

/-- The maximum with zero, entry by entry. -/
def relu {C : Nat} (X : Mat M C) : Mat M C := maximumf X (splat M C 0x00000000#32)

/-- exp (x − row maximum). -/
def expShift {C : Nat} (X : Mat M C) : Mat M C := Host.exp (subf X (across C (maxCol X)))

/-- The row-wise softmax. -/
def softmax {C : Nat} (X : Mat M C) : Mat M C := Host.divf (expShift X) (across C (sumCol (expShift X)))

/-- The Euclidean norm of each row, as a column. -/
def normCol {C : Nat} (v : Mat M C) : Mat M 1 := Host.sqrt (sumCol (mulf v v))

/-- Each row divided by the larger of its norm and the f32 nearest 10⁻¹². -/
def unit {C : Nat} (v : Mat M C) : Mat M C :=
  Host.divf v (across C (maximumf (normCol v) (splat M 1 0x2B8CBCCC#32)))

/-- v with its component along u removed, row by row: v − ⟨v, u⟩ u. -/
def strip {C : Nat} (v u : Mat M C) : Mat M C := subf v (mulf (across C (sumCol (mulf v u))) u)

/-- An M × C array as M × 1 × C. -/
def mid {C : Nat} (u : Mat M C) : Cube M 1 C := broadcastInDim ⟨3, ![M, 1, C]⟩ ![0, 2] (bidMid M C) u

end Cert.Spec

end
-- ==== Proof.LibTileLayers.lean ====
/-
  The network's layers on a tile of T rows, in a kernel's vector operations, against the same layers on the whole
  M-row arrays in the host's operations (LibHostLayers.lean). A tile x of an array X (rows [r0, r0 + T) of X) stays a tile
  through every layer, because every operation of such a network works row by row: a product with a weight matrix, a
  bias added to every row, the mean and the variance over a row's features, the row maximum and the row sum of the
  softmax, the inner product of two rows and a row's norm in the orthogonalisation. Each statement below says: if the
  operands are tiles of whole arrays, the kernel's expression on the tiles is the tile of the host's expression on the
  whole arrays.
-/
import proofs.«180137_j87625922773436_1_alg».proof.Proof.LibTileSoftmax
import proofs.«180137_j87625922773436_1_alg».proof.Proof.LibHostLayers

noncomputable section

namespace Cert.KSpec

open Idealize.ShloMosaic Idealize.ShloMosaic.ValueIdx Cert.Tile Cert.Spec

/-! ## Side conditions of the kernel's layout operations, at every extent -/

theorem scCol (T : Nat) : (⟨1, ![T]⟩ : Shape).ShapeCasts ⟨2, ![T, 1]⟩ := by
  show Shape.numel _ = Shape.numel _
  simp [Shape.numel, Fin.prod_univ_succ]

theorem scSelf (s : Shape) : s.ShapeCasts s := rfl

theorem bcCol (T C : Nat) : (⟨2, ![T, 1]⟩ : Shape).Broadcasts ⟨2, ![T, C]⟩ :=
  ⟨le_refl _, fun a => by
    match a with
    | ⟨0, _⟩ => exact Or.inr fun _ => rfl
    | ⟨1, _⟩ => exact Or.inl rfl⟩

theorem bcRow (T C : Nat) : (⟨2, ![1, C]⟩ : Shape).Broadcasts ⟨2, ![T, C]⟩ :=
  ⟨le_refl _, fun a => by
    match a with
    | ⟨0, _⟩ => exact Or.inl rfl
    | ⟨1, _⟩ => exact Or.inr fun _ => rfl⟩

/-- A tile of T rows and C columns. -/
abbrev Tl (T C : Nat) : Type := FVec Ideal ⟨2, ![T, C]⟩ .f32

variable {T : Nat}

/-! ## The layers on a tile, in the kernel's words -/

/-- The sum of each row of the tile, kept as a column. -/
def kSumCol {C : Nat} (x : Tl T C) : Tl T 1 :=
  shapeCast ⟨2, ![T, 1]⟩ (multiReduction (F := Ideal) .add [1] ⟨1, ![T]⟩ x 0x00000000#32 (red T C) (.inl rfl) rfl) (scCol T)

/-- The maximum of each row of the tile from −∞, kept as a column. -/
def kMaxCol {C : Nat} (x : Tl T C) : Tl T 1 :=
  shapeCast ⟨2, ![T, 1]⟩ (multiReduction (F := Ideal) .maximumf [1] ⟨1, ![T]⟩ x 0xFF800000#32 (red T C) (.inl rfl) rfl) (scCol T)

/-- One f32 value over the tile. -/
def kSplat (T C : Nat) (b : BitVec 32) : Tl T C := broadcast ⟨2, ![T, C]⟩ (Scalar.ofBits (F := Ideal) .f32 b)

/-- A column repeated across C columns. -/
def kAcross (C : Nat) (v : Tl T 1) : Tl T C := broadcastTo ⟨2, ![T, C]⟩ v (bcCol T C)

/-- A 1 × C row (passed through a cast to its own shape) repeated down the tile's rows. -/
def kRows (T : Nat) {C : Nat} (r : Tl 1 C) : Tl T C :=
  broadcastTo ⟨2, ![T, C]⟩ (shapeCast ⟨2, ![1, C]⟩ r (scSelf _)) (bcRow T C)

def kMeanCol {C : Nat} (n : BitVec 32) (x : Tl T C) : Tl T 1 := divf (kSumCol x) (kSplat T 1 n)

def kCenter {C : Nat} (n : BitVec 32) (x : Tl T C) : Tl T C := subf x (kAcross C (kMeanCol n x))

def kLnorm {C : Nat} (n : BitVec 32) (x : Tl T C) (g be : Tl 1 C) : Tl T C :=
  addf (mulf (mulf (kCenter n x)
      (kAcross C (rsqrt (addf (kMeanCol n (mulf (kCenter n x) (kCenter n x))) (kSplat T 1 0x3727C5AC#32)))))
    (kRows T g)) (kRows T be)

def kRelu {C : Nat} (x : Tl T C) : Tl T C := maximumf x (kSplat T C 0x00000000#32)

/-- x − its row maximum. -/
def kShift {C : Nat} (x : Tl T C) : Tl T C := subf x (kAcross C (kMaxCol x))

/-- exp s divided by its row sum. -/
def kNormExp {C : Nat} (s : Tl T C) : Tl T C := divf (exp s) (kAcross C (kSumCol (exp s)))

/-- A row sum of squares, as a column, to a unit vector: v / max (sqrt ss) tiny. -/
def kUnitOf {C : Nat} (v : Tl T C) (ss : Tl T 1) : Tl T C :=
  divf v (kAcross C (maximumf (sqrt ss) (kSplat T 1 0x2B8CBCCC#32)))

def kUnit {C : Nat} (v : Tl T C) : Tl T C := kUnitOf v (kSumCol (mulf v v))

def kStrip {C : Nat} (v u : Tl T C) : Tl T C := subf v (mulf (kAcross C (kSumCol (mulf v u))) u)

/-! ## Each layer keeps tiles -/

variable {M : Nat} {r0 : Nat} {hr : r0 + T ≤ M}

theorem lit_zero : lit 0x00000000#32 (Shape.Idx.first numel0) = 0 := Ideal.ofBits_zero_f32

theorem sumCol_eq {C : Nat} (X : Mat M C) : sumCol X = rowSum X :=
  hostRowSumCol X (lit 0x00000000#32) (redTo M C) (red M C) numel0 lit_zero (bidVecCol M)

theorem maxCol_eq {C : Nat} (X : Mat M C) : maxCol X = rowMax (Ideal.ofBits .f32 0xFF800000#32) X :=
  hostRowMaxCol X (lit 0xFF800000#32) (Ideal.ofBits .f32 0xFF800000#32) (redTo M C) (red M C) numel0 rfl _
    (fun a => broadcastInDim_apply _ (bidScalarVec M) (lit 0xFF800000#32) a ix0 fun ax => ax.elim0) (bidVecCol M)

theorem tSumCol {C : Nat} {x : Tl T C} {X : Mat M C} (hx : IsTile r0 hr x X) : IsTile r0 hr (kSumCol x) (sumCol X) :=
  (laneSum 0x00000000#32 (red T C) (.inl rfl) rfl (scCol T) hx).congr (sumCol_eq X).symm

theorem tMaxCol {C : Nat} {x : Tl T C} {X : Mat M C} (hx : IsTile r0 hr x X) : IsTile r0 hr (kMaxCol x) (maxCol X) :=
  (laneMax 0xFF800000#32 (red T C) (.inl rfl) rfl (scCol T) hx).congr (maxCol_eq X).symm

theorem tSplat (C : Nat) (b : BitVec 32) : IsTile r0 hr (kSplat T C b) (splat M C b) := vSplat b (bidScalar M C)

theorem tAcross (C : Nat) {v : Tl T 1} {V : Mat M 1} (hv : IsTile r0 hr v V) : IsTile r0 hr (kAcross C v) (across C V) :=
  colRep (bcCol T C) (bidCol M C) hv

/-- A length-C vector b, as the kernel finds it (cast to a 1 × C row), repeated down the tile's rows, is the tile of b
    repeated down the whole array's rows. -/
theorem tRows {C : Nat} (b : Vec1 C) (h1 : (⟨1, ![C]⟩ : Shape).ShapeCasts ⟨2, ![1, C]⟩) :
    IsTile r0 hr (kRows T (shapeCast ⟨2, ![1, C]⟩ b h1)) (rows M b) := by
  unfold kRows
  rw [shapeCast_self]
  exact bias b h1 (bcRow T C) (bidVecRow C) (bidRow M C)

theorem tMeanCol {C : Nat} (n : BitVec 32) {x : Tl T C} {X : Mat M C} (hx : IsTile r0 hr x X) :
    IsTile r0 hr (kMeanCol n x) (meanCol n X) := vDiv (tSumCol hx) (tSplat 1 n)

theorem tCenter {C : Nat} (n : BitVec 32) {x : Tl T C} {X : Mat M C} (hx : IsTile r0 hr x X) :
    IsTile r0 hr (kCenter n x) (center n X) := vSub hx (tAcross C (tMeanCol n hx))

theorem tRsqrt {C : Nat} {x : Tl T C} {X : Mat M C} (hx : IsTile r0 hr x X) : IsTile r0 hr (rsqrt x) (Host.rsqrt X) :=
  map Ideal.rsqrt hx

theorem tSqrt {C : Nat} {x : Tl T C} {X : Mat M C} (hx : IsTile r0 hr x X) : IsTile r0 hr (sqrt x) (Host.sqrt X) :=
  map Ideal.sqrt hx

theorem tExp {C : Nat} {x : Tl T C} {X : Mat M C} (hx : IsTile r0 hr x X) : IsTile r0 hr (exp x) (Host.exp X) :=
  map Ideal.exp hx

theorem tLnorm {C : Nat} (n : BitVec 32) {x : Tl T C} {X : Mat M C} (hx : IsTile r0 hr x X) (g be : Vec1 C)
    (h1 : (⟨1, ![C]⟩ : Shape).ShapeCasts ⟨2, ![1, C]⟩) :
    IsTile r0 hr (kLnorm n x (shapeCast ⟨2, ![1, C]⟩ g h1) (shapeCast ⟨2, ![1, C]⟩ be h1)) (lnorm n X g be) :=
  vAdd (vMul (vMul (tCenter n hx)
      (tAcross C (tRsqrt (vAdd (tMeanCol n (vMul (tCenter n hx) (tCenter n hx))) (tSplat 1 0x3727C5AC#32)))))
    (tRows g h1)) (tRows be h1)

theorem tRelu {C : Nat} {x : Tl T C} {X : Mat M C} (hx : IsTile r0 hr x X) : IsTile r0 hr (kRelu x) (relu X) :=
  vMax hx (tSplat C 0x00000000#32)

theorem tShift {C : Nat} {x : Tl T C} {X : Mat M C} (hx : IsTile r0 hr x X) :
    IsTile r0 hr (kShift x) (subf X (across C (maxCol X))) := vSub hx (tAcross C (tMaxCol hx))

theorem tNormExp {C : Nat} {s : Tl T C} {S : Mat M C} (hs : IsTile r0 hr s S) :
    IsTile r0 hr (kNormExp s) (Host.divf (Host.exp S) (across C (sumCol (Host.exp S)))) :=
  vDiv (tExp hs) (tAcross C (tSumCol (tExp hs)))

/-- The softmax of the whole array is exp of the shifted array divided by its row sums. -/
theorem tSoftmax {C : Nat} {x : Tl T C} {X : Mat M C} (hx : IsTile r0 hr x X) :
    IsTile r0 hr (kNormExp (kShift x)) (softmax X) := tNormExp (tShift hx)

theorem tUnitOf {C : Nat} {v : Tl T C} {V : Mat M C} {ss : Tl T 1} (hv : IsTile r0 hr v V)
    (hss : IsTile r0 hr ss (sumCol (mulf V V))) : IsTile r0 hr (kUnitOf v ss) (unit V) :=
  vDiv hv (tAcross C (vMax (tSqrt hss) (tSplat 1 0x2B8CBCCC#32)))

theorem tUnit {C : Nat} {v : Tl T C} {V : Mat M C} (hv : IsTile r0 hr v V) : IsTile r0 hr (kUnit v) (unit V) :=
  tUnitOf hv (tSumCol (vMul hv hv))

theorem tStrip {C : Nat} {v u : Tl T C} {V U : Mat M C} (hv : IsTile r0 hr v V) (hu : IsTile r0 hr u U) :
    IsTile r0 hr (kStrip v u) (strip V U) := vSub hv (vMul (tAcross C (tSumCol (vMul hv hu))) hu)

/-- The product of a tile with a weight matrix (as the kernel finds it, cast to its own shape) plus a bias row is the
    tile of the whole array's dense layer. -/
theorem tDense {K N : Nat} {φ₁ φ₂ : FTy} {x : (⟨2, ![T, K]⟩ : Shape).Idx → EReal} {X : Mat M K}
    (d : DotDims ⟨2, ![T, K]⟩ ⟨2, ![K, N]⟩ ⟨2, ![T, N]⟩) (hd : d = DotDims.plain T K N) (W : Mat K N) (b : Vec1 N)
    (h1 : (⟨1, ![N]⟩ : Shape).ShapeCasts ⟨2, ![1, N]⟩) (hx : IsTile r0 hr x X) :
    IsTile r0 hr
      (addf (F := Ideal) (Idealize.ShloMosaic.matmul (F := Ideal) (φ₁ := φ₁) (φ₂ := φ₂) d none x
          (shapeCast ⟨2, ![K, N]⟩ W (scSelf _)) (constant ⟨2, ![T, N]⟩ .f32 0x00000000#32))
        (kRows T (shapeCast ⟨2, ![1, N]⟩ b h1)))
      (dense X W b) := by
  rw [shapeCast_self]
  exact vAdd (vMatmul d hd none W hx) (tRows b h1)

end Cert.KSpec

end
-- ==== Proof.Net.lean ====
/-
  The network's layers on whole arrays and on row tiles.

  A graph-convolution layer takes the neighbour sums A and the node features X (both M × K) to
  max (A · Wr + X · Wo + b, 0): two products with weight matrices, a bias repeated down the rows, a maximum with zero.
  The classifier head takes the pooled features P to softmax (max (P · W1 + b1, 0) · W2 + b2), the softmax row by row.
  Every operation works row by row, so a tile of rows of the inputs is carried to the same tile of rows of the output:
  the statements below say that the vector-operation spelling on a tile is the tile of the host-operation spelling on
  the whole arrays.
-/
import proofs.«180137_j87625922773436_1_alg».proof.Proof.LibTileLayers

noncomputable section

namespace Cert.Net

open Idealize.ShloMosaic Idealize.ShloMosaic.ValueIdx Cert.Tile Cert.Spec Cert.KSpec

/-! ## On whole arrays, in the host's operations -/

/-- max (A · Wr + X · Wo + b, 0). -/
def conv {M K N : Nat} (A X : Mat M K) (Wr Wo : Mat K N) (b : Vec1 N) : Mat M N :=
  relu (addf (addf (Host.dotGeneral (F := Ideal) (DotDims.plain M K N) none A Wr)
    (Host.dotGeneral (F := Ideal) (DotDims.plain M K N) none X Wo)) (rows M b))

/-- softmax (max (P · W1 + b1, 0) · W2 + b2), row by row. -/
def head {M K H N : Nat} (P : Mat M K) (W1 : Mat K H) (b1 : Vec1 H) (W2 : Mat H N) (b2 : Vec1 N) : Mat M N :=
  softmax (dense (relu (dense P W1 b1)) W2 b2)

/-! ## On a tile of T rows, in vector operations -/

variable {T M : Nat} {r0 : Nat} {hr : r0 + T ≤ M}

/-- The row maximum from −∞ taken once more with −∞, kept as a column. -/
def kMaxColTwice {C : Nat} (x : Tl T C) : Tl T 1 :=
  shapeCast ⟨2, ![T, 1]⟩
    (maximumf (F := Ideal) (broadcast ⟨1, ![T]⟩ (Scalar.ofBits (F := Ideal) .f32 0xFF800000#32))
      (multiReduction (F := Ideal) .maximumf [1] ⟨1, ![T]⟩ x 0xFF800000#32 (red T C) (.inl rfl) rfl)) (scCol T)

/-- A fold of max that starts from b is at least b, so taking the maximum with b again changes nothing. -/
theorem kMaxColTwice_eq {C : Nat} (x : Tl T C) : kMaxColTwice x = kMaxCol x := by
  funext i
  obtain ⟨p, q, rfl⟩ : ∃ (p : Fin T) (q : Fin 1), i = ix2 p q := ⟨i 0, i 1, eq_ix2 i⟩
  unfold kMaxColTwice kMaxCol
  rw [RowOps.shapeCast_a_a1_apply _ (scCol T) p q, RowOps.shapeCast_a_a1_apply _ (scCol T) p q]
  show max (Ideal.ofBits .f32 0xFF800000#32)
      (multiReduction (F := Ideal) .maximumf [1] ⟨1, ![T]⟩ x 0xFF800000#32 (red T C) (.inl rfl) rfl (ix1 p)) = _
  rw [RowOps.rowMax_apply x 0xFF800000#32 (red T C) (.inl rfl) rfl p]
  exact RowOps.max_fold_max _ _ _

theorem tMaxColTwice {C : Nat} {x : Tl T C} {X : Mat M C} (hx : IsTile r0 hr x X) :
    IsTile r0 hr (kMaxColTwice x) (maxCol X) := by
  rw [kMaxColTwice_eq]; exact tMaxCol hx

/-- The softmax of a tile, the row maximum taken twice with −∞. -/
def kSoftmax {C : Nat} (x : Tl T C) : Tl T C := kNormExp (subf x (kAcross C (kMaxColTwice x)))

theorem tSoftmax' {C : Nat} {x : Tl T C} {X : Mat M C} (hx : IsTile r0 hr x X) :
    IsTile r0 hr (kSoftmax x) (softmax X) :=
  tNormExp (vSub hx (tAcross C (tMaxColTwice hx)))

/-- A product with a weight matrix after both operands are narrowed to bf16 (the identity on the extended reals). -/
def kMatmul {K N : Nat} (d : DotDims ⟨2, ![T, K]⟩ ⟨2, ![K, N]⟩ ⟨2, ![T, N]⟩) (x : Tl T K) (W : Mat K N) : Tl T N :=
  Idealize.ShloMosaic.matmul (F := Ideal) (φ₁ := .bf16) (φ₂ := .bf16) d none x W (constant ⟨2, ![T, N]⟩ .f32 0x00000000#32)

theorem tMatmul {K N : Nat} (d : DotDims ⟨2, ![T, K]⟩ ⟨2, ![K, N]⟩ ⟨2, ![T, N]⟩) (hd : d = DotDims.plain T K N)
    {x : Tl T K} {X : Mat M K} (W : Mat K N) (hx : IsTile r0 hr x X) :
    IsTile r0 hr (kMatmul d x W) (Host.dotGeneral (F := Ideal) (DotDims.plain M K N) none X W) :=
  vMatmul d hd none W hx

/-- The graph-convolution layer on a tile. -/
def kConv {K N : Nat} (d : DotDims ⟨2, ![T, K]⟩ ⟨2, ![K, N]⟩ ⟨2, ![T, N]⟩) (a x : Tl T K) (Wr Wo : Mat K N) (b : Tl 1 N) : Tl T N :=
  kRelu (addf (F := Ideal) (addf (F := Ideal) (kMatmul d a Wr) (kMatmul d x Wo)) (kRows T b))

theorem tConv {K N : Nat} (d : DotDims ⟨2, ![T, K]⟩ ⟨2, ![K, N]⟩ ⟨2, ![T, N]⟩) (hd : d = DotDims.plain T K N)
    {a x : Tl T K} {A X : Mat M K} (Wr Wo : Mat K N) (b : Vec1 N) (h1 : (⟨1, ![N]⟩ : Shape).ShapeCasts ⟨2, ![1, N]⟩)
    (ha : IsTile r0 hr a A) (hx : IsTile r0 hr x X) :
    IsTile r0 hr (kConv d a x Wr Wo (shapeCast ⟨2, ![1, N]⟩ b h1)) (conv A X Wr Wo b) :=
  tRelu (vAdd (vAdd (tMatmul d hd Wr ha) (tMatmul d hd Wo hx)) (tRows b h1))

/-- The classifier head on a tile. -/
def kHead {K H N : Nat} (d1 : DotDims ⟨2, ![T, K]⟩ ⟨2, ![K, H]⟩ ⟨2, ![T, H]⟩) (d2 : DotDims ⟨2, ![T, H]⟩ ⟨2, ![H, N]⟩ ⟨2, ![T, N]⟩)
    (p : Tl T K) (W1 : Mat K H) (b1 : Tl 1 H) (W2 : Mat H N) (b2 : Tl 1 N) : Tl T N :=
  kSoftmax (addf (F := Ideal) (kMatmul d2 (kRelu (addf (F := Ideal) (kMatmul d1 p W1) (kRows T b1))) W2) (kRows T b2))

theorem tHead {K H N : Nat} (d1 : DotDims ⟨2, ![T, K]⟩ ⟨2, ![K, H]⟩ ⟨2, ![T, H]⟩) (hd1 : d1 = DotDims.plain T K H)
    (d2 : DotDims ⟨2, ![T, H]⟩ ⟨2, ![H, N]⟩ ⟨2, ![T, N]⟩) (hd2 : d2 = DotDims.plain T H N)
    {p : Tl T K} {P : Mat M K} (W1 : Mat K H) (b1 : Vec1 H) (W2 : Mat H N) (b2 : Vec1 N)
    (h1 : (⟨1, ![H]⟩ : Shape).ShapeCasts ⟨2, ![1, H]⟩) (h2 : (⟨1, ![N]⟩ : Shape).ShapeCasts ⟨2, ![1, N]⟩)
    (hp : IsTile r0 hr p P) :
    IsTile r0 hr (kHead d1 d2 p W1 (shapeCast ⟨2, ![1, H]⟩ b1 h1) W2 (shapeCast ⟨2, ![1, N]⟩ b2 h2)) (head P W1 b1 W2 b2) :=
  tSoftmax' (vAdd (tMatmul d2 hd2 W2 (tRelu (vAdd (tMatmul d1 hd1 W1 hp) (tRows b1 h1)))) (tRows b2 h2))

/-- A tile of all the rows at offset 0 is the whole array. -/
theorem eq_of_isTile_all {M C : Nat} {x X : Mat M C} (h : IsTile (T := M) 0 (Nat.le_of_eq (Nat.zero_add M)) x X) : x = X := by
  funext i
  obtain ⟨p, q, rfl⟩ : ∃ (p : Fin M) (q : Fin C), i = ix2 p q := ⟨i 0, i 1, eq_ix2 i⟩
  refine (h p q).trans (congrArg X ?_)
  congr 1
  exact Fin.ext (Nat.zero_add _)

end Cert.Net

end
-- ==== Proof.Layer0.lean ====
/-
  Graph-convolution region 0: the array its output window ends holding. The grid has 20 points; point t stages rows
  [5000 t, 5000 t + 5000) of the neighbour sums and of the node features, the two weight matrices and the bias row whole,
  and writes back rows [5000 t, 5000 t + 5000) of the output. The body computes the layer on its tile of rows, which is
  the tile of the layer on the whole arrays; the 20 written blocks tile the output, so it ends holding the whole layer.
-/
import proofs.«180137_j87625922773436_1_alg».proof.Proof.Gen.KernelIdeal.Frame
import proofs.«180137_j87625922773436_1_alg».proof.Proof.Net
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Spec Cert.KSpec Cert.Net

variable (V : (c : Dev nD) → (b : Ref sig .tc) → Buf (Elt Ideal) ((c : Thread nD τ).loc b))

theorem hz : (![0, 0] : Fin 2 → Nat) = fun _ => 0 := funext fun a => by fin_cases a <;> rfl

/-- The block indices of the six windows at every point: the row-tiled ones move with the point, the others stay at 0. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem hrow (t : Fin cfg0.N) : 5000 * t.val + 5000 ≤ 100000 := by
  have h := t.isLt
  have hN : cfg0.N = 20 := N_0
  omega

/-- The body's stored value is the layer on its tile of rows. -/
theorem pay_tile {r0 : Nat} {hr : r0 + 5000 ≤ 100000} {x0 x1 : Tl 5000 64} {A X : Mat 100000 64} (x2 x3 : Mat 64 128) (b : Vec1 128)
    (h0 : IsTile r0 hr x0 A) (h1 : IsTile r0 hr x1 X) :
    IsTile r0 hr (k0_pay1 (F := Ideal) x0 x1 x2 x3 (shapeCast S1x128 b shapeCasts_S128_S1x128)) (conv A X x2 x3 b) := by
  unfold k0_pay1
  exact tRelu (vAdd (vAdd (vMatmul dot_S5000x64_S64x128_S5000x128_1_0_0_1_n_n rfl none _ (vTrunc .bf16 _ (castSelf _ h0)))
    (vMatmul dot_S5000x64_S64x128_S5000x128_1_0_0_1_n_n rfl none _ (vTrunc .bf16 _ h1))) (tRows b shapeCasts_S128_S1x128))

/-- Window 0's block at point t is rows [5000 t, 5000 t + 5000) of its array. -/
theorem tile_0 (c : Dev nD) (t : Fin cfg0.N) :
    IsTile (T := 5000) (M := 100000) (C := 64) (5000 * t.val) (hrow t) (iblk0 V c 0 t) (V c main_v13) := by
  intro p l
  obtain ⟨e0, e1, -⟩ := idx t
  unfold iblk0
  rw [View.read_apply]
  show V c main_v13 _ = V c main_v13 _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 64 + 1 * l.val = l.val; rw [e1]; omega

/-- Window 1's block at point t is rows [5000 t, 5000 t + 5000) of its array. -/
theorem tile_1 (c : Dev nD) (t : Fin cfg0.N) :
    IsTile (T := 5000) (M := 100000) (C := 64) (5000 * t.val) (hrow t) (iblk0 V c 1 t) (V c main_arg0) := by
  intro p l
  obtain ⟨-, -, e0, e1, -⟩ := idx t
  unfold iblk0
  rw [View.read_apply]
  show V c main_arg0 _ = V c main_arg0 _
  congr 1
  funext a; apply Fin.ext
  match a with
  | ⟨0, _⟩ => show win0_1.index t (0 : Fin 2) * 5000 + 1 * p.val = 5000 * t.val + p.val; rw [e0]; omega
  | ⟨1, _⟩ => show win0_1.index t (1 : Fin 2) * 64 + 1 * l.val = l.val; rw [e1]; omega

/-- Windows 2, 3 and 4 stage their whole arrays at every point. -/
theorem whole_2 (c : Dev nD) (t : Fin cfg0.N) : (iblk0 V c 2 t : Vec Ideal S64x128 .f32) = V c main_arg3 := by
  obtain ⟨-, -, -, -, e0, e1, -⟩ := idx t
  funext y
  unfold iblk0
  rw [View.read_apply]
  show V c main_arg3 _ = V c main_arg3 _
  congr 1
  funext a; apply Fin.ext
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

theorem whole_3 (c : Dev nD) (t : Fin cfg0.N) : (iblk0 V c 3 t : Vec Ideal S64x128 .f32) = V c main_arg5 := by
  obtain ⟨-, -, -, -, -, -, e0, e1, -⟩ := idx t
  funext y
  unfold iblk0
  rw [View.read_apply]
  show V c main_arg5 _ = V c main_arg5 _
  congr 1
  funext a; apply Fin.ext
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

theorem whole_4 (c : Dev nD) (t : Fin cfg0.N) : (iblk0 V c 4 t : Vec Ideal S1x128 .f32) = V c main_v14 := by
  obtain ⟨-, -, -, -, -, -, -, -, e0, e1, -⟩ := idx t
  funext y
  unfold iblk0
  rw [View.read_apply]
  show V c main_v14 _ = V c main_v14 _
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What point t writes back is block t of the layer on the whole arrays as the region finds them, the bias row being
    the length-128 vector b cast to 1 × 128. -/
theorem flushed_eq (c : Dev nD) (b : Vec1 128)
    (hb : (V c main_v14 : Vec Ideal S1x128 .f32) = shapeCast S1x128 b shapeCasts_S128_S1x128) (t : Fin cfg0.N) :
    (dat0 V c).flushed 5 t = ((cfg0.win 5).blk t).view.read (Elt Ideal)
      (conv (V c main_v13) (V c main_arg0) (V c main_arg3) (V c main_arg5) b : Mat 100000 128) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  rw [whole_2 V c t, whole_3 V c t, whole_4 V c t, hb]
  obtain ⟨-, -, -, -, -, -, -, -, -, -, e0, e1⟩ := idx t
  funext j
  obtain ⟨p, q, rfl⟩ : ∃ (p : Fin 5000) (q : Fin 128), j = ix2 p q := ⟨j 0, j 1, eq_ix2 j⟩
  refine (pay_tile (r0 := 5000 * t.val) (hr := hrow t) (x0 := iblk0 V c 0 t) (x1 := iblk0 V c 1 t)
    (A := V c main_v13) (X := V c main_arg0) (V c main_arg3) (V c main_arg5) b (tile_0 V c t) (tile_1 V c t) p q).trans ?_
  rw [View.read_apply]
  show (conv (V c main_v13) (V c main_arg0) (V c main_arg3) (V c main_arg5) b : Mat 100000 128) _ = (conv (V c main_v13) (V c main_arg0) (V c main_arg3) (V c main_arg5) b : Mat 100000 128) _
  congr 1
  funext a; apply Fin.ext
  match a with
  | ⟨0, _⟩ => show 5000 * t.val + p.val = win0_5.index t (0 : Fin 2) * 5000 + 1 * p.val; rw [e0]; omega
  | ⟨1, _⟩ => show q.val = win0_5.index t (1 : Fin 2) * 128 + 1 * q.val; rw [e1]; omega

/-- Every output index lies in the block of the point its row falls in. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := idx ⟨(i 0).val / 5000, ht⟩
  refine ⟨⟨(i 0).val / 5000, ht⟩, flush0_5 _, ?_⟩
  show i ∈ ((View.whole main_v15).slice (win0_5.rect ⟨(i 0).val / 5000, ht⟩)).set
  rw [View.set_slice_whole, Rect.mem_set_unit]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]
    omega

/-- The output array after the region: the layer on the whole arrays as the region finds them. -/
theorem final (c : Dev nD) (b : Vec1 128)
    (hb : (V c main_v14 : Vec Ideal S1x128 .f32) = shapeCast S1x128 b shapeCasts_S128_S1x128) :
    (dat0 V c).arrAt 5 cfg0.N = (conv (V c main_v13) (V c main_arg0) (V c main_arg3) (V c main_arg5) b : Mat 100000 128) :=
  (dat0 V c).arrAt_eq_of_cover 5 _ (fun t _ => flushed_eq V c b hb t) covered

end Cert.KernelIdeal.Layer0

end
-- ==== Proof.Layer1.lean ====
/-
  Graph-convolution region 1: the array its output window ends holding. The grid has 20 points; point t stages rows
  [5000 t, 5000 t + 5000) of the neighbour sums and of the node features, the two weight matrices and the bias row whole,
  and writes back rows [5000 t, 5000 t + 5000) of the output. The body computes the layer on its tile of rows, which is
  the tile of the layer on the whole arrays; the 20 written blocks tile the output, so it ends holding the whole layer.
-/
import proofs.«180137_j87625922773436_1_alg».proof.Proof.Gen.KernelIdeal.Frame
import proofs.«180137_j87625922773436_1_alg».proof.Proof.Net
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Spec Cert.KSpec Cert.Net

variable (V : (c : Dev nD) → (b : Ref sig .tc) → Buf (Elt Ideal) ((c : Thread nD τ).loc b))

theorem hz : (![0, 0] : Fin 2 → Nat) = fun _ => 0 := funext fun a => by fin_cases a <;> rfl

/-- The block indices of the six windows at every point: the row-tiled ones move with the point, the others stay at 0. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem hrow (t : Fin cfg1.N) : 5000 * t.val + 5000 ≤ 100000 := by
  have h := t.isLt
  have hN : cfg1.N = 20 := N_1
  omega

/-- The body's stored value is the layer on its tile of rows. -/
theorem pay_tile {r0 : Nat} {hr : r0 + 5000 ≤ 100000} {x0 x1 : Tl 5000 128} {A X : Mat 100000 128} (x2 x3 : Mat 128 128) (b : Vec1 128)
    (h0 : IsTile r0 hr x0 A) (h1 : IsTile r0 hr x1 X) :
    IsTile r0 hr (k1_pay1 (F := Ideal) x0 x1 x2 x3 (shapeCast S1x128 b shapeCasts_S128_S1x128)) (conv A X x2 x3 b) := by
  unfold k1_pay1
  exact tRelu (vAdd (vAdd (vMatmul dot_S5000x128_S128x128_S5000x128_1_0_0_1_n_n rfl none _ (vTrunc .bf16 _ (castSelf _ h0)))
    (vMatmul dot_S5000x128_S128x128_S5000x128_1_0_0_1_n_n rfl none _ (vTrunc .bf16 _ (castSelf _ h1)))) (tRows b shapeCasts_S128_S1x128))

/-- Window 0's block at point t is rows [5000 t, 5000 t + 5000) of its array. -/
theorem tile_0 (c : Dev nD) (t : Fin cfg1.N) :
    IsTile (T := 5000) (M := 100000) (C := 128) (5000 * t.val) (hrow t) (iblk1 V c 0 t) (V c main_v25) := by
  intro p l
  obtain ⟨e0, e1, -⟩ := idx t
  unfold iblk1
  rw [View.read_apply]
  show V c main_v25 _ = V c main_v25 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * l.val = l.val; rw [e1]; omega

/-- Window 1's block at point t is rows [5000 t, 5000 t + 5000) of its array. -/
theorem tile_1 (c : Dev nD) (t : Fin cfg1.N) :
    IsTile (T := 5000) (M := 100000) (C := 128) (5000 * t.val) (hrow t) (iblk1 V c 1 t) (V c main_v15) := by
  intro p l
  obtain ⟨-, -, e0, e1, -⟩ := idx t
  unfold iblk1
  rw [View.read_apply]
  show V c main_v15 _ = V c main_v15 _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 128 + 1 * l.val = l.val; rw [e1]; omega

/-- Windows 2, 3 and 4 stage their whole arrays at every point. -/
theorem whole_2 (c : Dev nD) (t : Fin cfg1.N) : (iblk1 V c 2 t : Vec Ideal S128x128 .f32) = V c main_arg6 := by
  obtain ⟨-, -, -, -, e0, e1, -⟩ := idx t
  funext y
  unfold iblk1
  rw [View.read_apply]
  show V c main_arg6 _ = V c main_arg6 _
  congr 1
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem whole_3 (c : Dev nD) (t : Fin cfg1.N) : (iblk1 V c 3 t : Vec Ideal S128x128 .f32) = V c main_arg8 := by
  obtain ⟨-, -, -, -, -, -, e0, e1, -⟩ := idx t
  funext y
  unfold iblk1
  rw [View.read_apply]
  show V c main_arg8 _ = V c main_arg8 _
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem whole_4 (c : Dev nD) (t : Fin cfg1.N) : (iblk1 V c 4 t : Vec Ideal S1x128 .f32) = V c main_v26 := by
  obtain ⟨-, -, -, -, -, -, -, -, e0, e1, -⟩ := idx t
  funext y
  unfold iblk1
  rw [View.read_apply]
  show V c main_v26 _ = V c main_v26 _
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point t writes back is block t of the layer on the whole arrays as the region finds them, the bias row being
    the length-128 vector b cast to 1 × 128. -/
theorem flushed_eq (c : Dev nD) (b : Vec1 128)
    (hb : (V c main_v26 : Vec Ideal S1x128 .f32) = shapeCast S1x128 b shapeCasts_S128_S1x128) (t : Fin cfg1.N) :
    (dat1 V c).flushed 5 t = ((cfg1.win 5).blk t).view.read (Elt Ideal)
      (conv (V c main_v25) (V c main_v15) (V c main_arg6) (V c main_arg8) b : Mat 100000 128) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [whole_2 V c t, whole_3 V c t, whole_4 V c t, hb]
  obtain ⟨-, -, -, -, -, -, -, -, -, -, e0, e1⟩ := idx t
  funext j
  obtain ⟨p, q, rfl⟩ : ∃ (p : Fin 5000) (q : Fin 128), j = ix2 p q := ⟨j 0, j 1, eq_ix2 j⟩
  refine (pay_tile (r0 := 5000 * t.val) (hr := hrow t) (x0 := iblk1 V c 0 t) (x1 := iblk1 V c 1 t)
    (A := V c main_v25) (X := V c main_v15) (V c main_arg6) (V c main_arg8) b (tile_0 V c t) (tile_1 V c t) p q).trans ?_
  rw [View.read_apply]
  show (conv (V c main_v25) (V c main_v15) (V c main_arg6) (V c main_arg8) b : Mat 100000 128) _ = (conv (V c main_v25) (V c main_v15) (V c main_arg6) (V c main_arg8) b : Mat 100000 128) _
  congr 1
  funext a; apply Fin.ext
  match a with
  | ⟨0, _⟩ => show 5000 * t.val + p.val = win1_5.index t (0 : Fin 2) * 5000 + 1 * p.val; rw [e0]; omega
  | ⟨1, _⟩ => show q.val = win1_5.index t (1 : Fin 2) * 128 + 1 * q.val; rw [e1]; omega

/-- Every output index lies in the block of the point its row falls in. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e0, e1⟩ := idx ⟨(i 0).val / 5000, ht⟩
  refine ⟨⟨(i 0).val / 5000, ht⟩, flush1_5 _, ?_⟩
  show i ∈ ((View.whole main_v27).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]
    omega

/-- The output array after the region: the layer on the whole arrays as the region finds them. -/
theorem final (c : Dev nD) (b : Vec1 128)
    (hb : (V c main_v26 : Vec Ideal S1x128 .f32) = shapeCast S1x128 b shapeCasts_S128_S1x128) :
    (dat1 V c).arrAt 5 cfg1.N = (conv (V c main_v25) (V c main_v15) (V c main_arg6) (V c main_arg8) b : Mat 100000 128) :=
  (dat1 V c).arrAt_eq_of_cover 5 _ (fun t _ => flushed_eq V c b hb t) covered

end Cert.KernelIdeal.Layer1

end
-- ==== Proof.Layer2.lean ====
/-
  The classifier-head region: the array its output window ends holding. The grid has one point, which stages the
  pooled features, both weight matrices and both bias rows whole and writes the whole 64 × 50 output back. The body's
  stored value is the head applied to what it staged: two dense layers with a maximum with zero between them, then the
  row-wise softmax (row maximum from −∞, taken once more with −∞; exponentials of the shifted rows; division by their
  row sums).
-/
import proofs.«180137_j87625922773436_1_alg».proof.Proof.Gen.KernelIdeal.Frame
import proofs.«180137_j87625922773436_1_alg».proof.Proof.Net
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Spec Cert.KSpec Cert.Net

variable (V : (c : Dev nD) → (b : Ref sig .tc) → Buf (Elt Ideal) ((c : Thread nD τ).loc b))

theorem hz : (![0, 0] : Fin 2 → Nat) = fun _ => 0 := funext fun a => by fin_cases a <;> rfl

/-- Every window's block index is (0, 0) at the one point. -/
theorem idx : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 ∧ True :=
  (by decide +kernel : ∀ t : Fin grid2.N, _)

/-- An array is the tile of all its own rows. -/
theorem isTile_self {M C : Nat} (X : Mat M C) : IsTile (T := M) 0 (Nat.le_of_eq (Nat.zero_add M)) X X :=
  fun p l => congrArg X (by congr 1; exact Fin.ext (Nat.zero_add _).symm)

/-- The body's stored value is the head of what it staged, the bias rows being length-128 and length-50 vectors cast
    to one-row arrays. -/
theorem pay_eq (x0 : Mat 64 128) (x1 : Mat 128 128) (b1 : Vec1 128) (x3 : Mat 128 50) (b2 : Vec1 50) :
    k2_pay1 (F := Ideal) x0 x1 (shapeCast S1x128 b1 shapeCasts_S128_S1x128) x3 (shapeCast S1x50 b2 shapeCasts_S50_S1x50)
      = head x0 x1 b1 x3 b2 := by
  refine eq_of_isTile_all ?_
  unfold k2_pay1
  exact tSoftmax' (vAdd (vMatmul dot_S64x128_S128x50_S64x50_1_0_0_1_n_n rfl none _ (vTrunc .bf16 _
    (tRelu (vAdd (vMatmul dot_S64x128_S128x128_S64x128_1_0_0_1_n_n rfl none _ (vTrunc .bf16 _ (castSelf _ (isTile_self x0))))
      (tRows b1 shapeCasts_S128_S1x128))))) (tRows b2 shapeCasts_S50_S1x50))

/-- Each window stages its whole array. -/
theorem whole_0 (c : Dev nD) (t : Fin cfg2.N) : (iblk2 V c 0 t : Vec Ideal S64x128 .f32) = V c main_v38 := by
  have e0 : win2_0.index t (0 : Fin 2) = 0 := (idx t).1
  have e1 : win2_0.index t (1 : Fin 2) = 0 := (idx t).2.1
  funext y
  unfold iblk2
  rw [View.read_apply]
  show V c main_v38 _ = V c main_v38 _
  congr 1
  funext a; apply Fin.ext
  match a with
  | ⟨0, _⟩ => show win2_0.index t (0 : Fin 2) * 64 + 1 * (y 0).val = (y 0).val; rw [e0]; omega
  | ⟨1, _⟩ => show win2_0.index t (1 : Fin 2) * 128 + 1 * (y 1).val = (y 1).val; rw [e1]; omega

theorem whole_1 (c : Dev nD) (t : Fin cfg2.N) : (iblk2 V c 1 t : Vec Ideal S128x128 .f32) = V c main_arg9 := by
  have e0 : win2_1.index t (0 : Fin 2) = 0 := (idx t).2.2.1
  have e1 : win2_1.index t (1 : Fin 2) = 0 := (idx t).2.2.2.1
  funext y
  unfold iblk2
  rw [View.read_apply]
  show V c main_arg9 _ = V c main_arg9 _
  congr 1
  funext a; apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

theorem whole_2 (c : Dev nD) (t : Fin cfg2.N) : (iblk2 V c 2 t : Vec Ideal S1x128 .f32) = V c main_v39 := by
  have e0 : win2_2.index t (0 : Fin 2) = 0 := (idx t).2.2.2.2.1
  have e1 : win2_2.index t (1 : Fin 2) = 0 := (idx t).2.2.2.2.2.1
  funext y
  unfold iblk2
  rw [View.read_apply]
  show V c main_v39 _ = V c main_v39 _
  congr 1
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

theorem whole_3 (c : Dev nD) (t : Fin cfg2.N) : (iblk2 V c 3 t : Vec Ideal S128x50 .f32) = V c main_arg11 := by
  have e0 : win2_3.index t (0 : Fin 2) = 0 := (idx t).2.2.2.2.2.2.1
  have e1 : win2_3.index t (1 : Fin 2) = 0 := (idx t).2.2.2.2.2.2.2.1
  funext y
  unfold iblk2
  rw [View.read_apply]
  show V c main_arg11 _ = V c main_arg11 _
  congr 1
  funext a; apply Fin.ext
  match a with
  | ⟨0, _⟩ => show win2_3.index t (0 : Fin 2) * 128 + 1 * (y 0).val = (y 0).val; rw [e0]; omega
  | ⟨1, _⟩ => show win2_3.index t (1 : Fin 2) * 50 + 1 * (y 1).val = (y 1).val; rw [e1]; omega

theorem whole_4 (c : Dev nD) (t : Fin cfg2.N) : (iblk2 V c 4 t : Vec Ideal S1x50 .f32) = V c main_v40 := by
  have e0 : win2_4.index t (0 : Fin 2) = 0 := (idx t).2.2.2.2.2.2.2.2.1
  have e1 : win2_4.index t (1 : Fin 2) = 0 := (idx t).2.2.2.2.2.2.2.2.2.1
  funext y
  unfold iblk2
  rw [View.read_apply]
  show V c main_v40 _ = V c main_v40 _
  congr 1
  funext a; apply Fin.ext
  match a with
  | ⟨0, _⟩ => show win2_4.index t (0 : Fin 2) * 1 + 1 * (y 0).val = (y 0).val; rw [e0]; omega
  | ⟨1, _⟩ => show win2_4.index t (1 : Fin 2) * 50 + 1 * (y 1).val = (y 1).val; rw [e1]; omega

/-- What the one point writes back is the head of the arrays as the region finds them, read through the whole block. -/
theorem flushed_eq (c : Dev nD) (b1 : Vec1 128) (b2 : Vec1 50)
    (hb1 : (V c main_v39 : Vec Ideal S1x128 .f32) = shapeCast S1x128 b1 shapeCasts_S128_S1x128)
    (hb2 : (V c main_v40 : Vec Ideal S1x50 .f32) = shapeCast S1x50 b2 shapeCasts_S50_S1x50) (t : Fin cfg2.N) :
    (dat2 V c).flushed 5 t = ((cfg2.win 5).blk t).view.read (Elt Ideal)
      (head (V c main_v38) (V c main_arg9) b1 (V c main_arg11) b2 : Mat 64 50) := by
  show (cfg2.win 5).cut (grid2.coords t) ((dat2 V c).after 5 t) = _
  rw [after2_5]
  unfold out2_5
  rw [View.canon_unit_zero hz]
  simp only [View.ld_unit_zero (S := S64x128) hz, View.ld_unit_zero (S := S128x128) hz, View.ld_unit_zero (S := S1x128) hz,
    View.ld_unit_zero (S := S128x50) hz, View.ld_unit_zero (S := S1x50) hz]
  rw [whole_0 V c t, whole_1 V c t, whole_2 V c t, whole_3 V c t, whole_4 V c t, hb1, hb2, pay_eq]
  have e0 : win2_5.index t (0 : Fin 2) = 0 := (idx t).2.2.2.2.2.2.2.2.2.2.1
  have e1 : win2_5.index t (1 : Fin 2) = 0 := (idx t).2.2.2.2.2.2.2.2.2.2.2.1
  funext j
  rw [View.read_apply]
  show (head (V c main_v38) (V c main_arg9) b1 (V c main_arg11) b2 : Mat 64 50) _ = (head (V c main_v38) (V c main_arg9) b1 (V c main_arg11) b2 : Mat 64 50) _
  congr 1
  funext a; apply Fin.ext
  match a with
  | ⟨0, _⟩ => show (j 0).val = win2_5.index t (0 : Fin 2) * 64 + 1 * (j 0).val; rw [e0]; omega
  | ⟨1, _⟩ => show (j 1).val = win2_5.index t (1 : Fin 2) * 50 + 1 * (j 1).val; rw [e1]; omega

/-- The one point's block is the whole output. -/
theorem covered (i : S64x50.Idx) :
    ∃ t : Fin cfg2.N, (cfg2.win 5).flush t = true ∧ i ∈ ((cfg2.win 5).blk t).view.set := by
  have hi0 : (i 0).val < 64 := (i 0).isLt
  have hi1 : (i 1).val < 50 := (i 1).isLt
  have e0 : win2_5.index t2_0 (0 : Fin 2) = 0 := (idx t2_0).2.2.2.2.2.2.2.2.2.2.1
  have e1 : win2_5.index t2_0 (1 : Fin 2) = 0 := (idx t2_0).2.2.2.2.2.2.2.2.2.2.2.1
  refine ⟨t2_0, flush2_5 _, ?_⟩
  show i ∈ ((View.whole main_v41).slice (win2_5.rect t2_0)).set
  rw [View.set_slice_whole, Rect.mem_set_unit]
  intro a
  match a with
  | ⟨0, _⟩ =>
    show win2_5.index t2_0 (0 : Fin 2) * 64 ≤ (i 0).val ∧ (i 0).val < win2_5.index t2_0 (0 : Fin 2) * 64 + 64
    rw [e0]; omega
  | ⟨1, _⟩ =>
    show win2_5.index t2_0 (1 : Fin 2) * 50 ≤ (i 1).val ∧ (i 1).val < win2_5.index t2_0 (1 : Fin 2) * 50 + 50
    rw [e1]; omega

/-- The output array after the region: the head of the arrays as the region finds them. -/
theorem final (c : Dev nD) (b1 : Vec1 128) (b2 : Vec1 50)
    (hb1 : (V c main_v39 : Vec Ideal S1x128 .f32) = shapeCast S1x128 b1 shapeCasts_S128_S1x128)
    (hb2 : (V c main_v40 : Vec Ideal S1x50 .f32) = shapeCast S1x50 b2 shapeCasts_S50_S1x50) :
    (dat2 V c).arrAt 5 cfg2.N = (head (V c main_v38) (V c main_arg9) b1 (V c main_arg11) b2 : Mat 64 50) :=
  (dat2 V c).arrAt_eq_of_cover 5 _ (fun t _ => flushed_eq V c b1 b2 hb1 hb2 t) covered

end Cert.KernelIdeal.Layer2

end
-- ==== Proof.Whole.lean ====
/-
  The whole network as one function of the argument arrays, in the host's operations.

  From the edge list e (2 × 1600000: sources in row 0, targets in row 1) a node's neighbour sum adds the feature rows of
  the sources of the edges that end at it: a gather of the rows at the source indices (a negative index counted from the
  end), scatter-added into a zero array at the target indices. Two graph-convolution layers follow, each
  max (A · Wr + X · Wo + b, 0) with A the neighbour sums of the layer's input X. The node features are then averaged per
  graph: scatter-added at the graph ids, divided by the larger of the graph's node count and 1. The classifier head ends
  in a row-wise softmax.
-/
import proofs.«180137_j87625922773436_1_alg».proof.KernelIdeal
import proofs.«180137_j87625922773436_1_alg».proof.Proof.Gen.KernelIdeal
import proofs.«180137_j87625922773436_1_alg».proof.Proof.Net

noncomputable section

namespace Cert.KernelIdeal.Whole

open Cert.KernelIdeal Cert.KernelIdeal.Gen Idealize.ShloMosaic Cert.Spec Cert.Net

/-- The edge list and the graph ids, as the program holds them. -/
abbrev Edges : Type := (⟨S2x1600000, .i32⟩ : BufTy).Contents (Elt Ideal)
abbrev Ids : Type := (⟨S100000, .i32⟩ : BufTy).Contents (Elt Ideal)

/-- Row 0 of the edge list: the sources. -/
def srcOf (e : Edges) : (⟨S1600000, .i32⟩ : BufTy).Contents (Elt Ideal) :=
  shapeCast S1600000 (extractStridedSlice S1x1600000 ![0, 0] e slices_S2x1600000_S1x1600000_0_0) shapeCasts_S1x1600000_S1600000

/-- Row 1 of the edge list: the targets. -/
def dstOf (e : Edges) : (⟨S1600000, .i32⟩ : BufTy).Contents (Elt Ideal) :=
  shapeCast S1600000 (extractStridedSlice S1x1600000 ![1, 0] e slices_S2x1600000_S1x1600000_1_0) shapeCasts_S1x1600000_S1600000

/-- The gather's start indices: a negative source index has the node count added, then a column is made of them. -/
def gidx (e : Edges) : (⟨S1600000x1, .i32⟩ : BufTy).Contents (Elt Ideal) :=
  broadcastInDim S1600000x1 ![0] bcast_S1600000_S1600000x1_0
    (select (cmpi .slt (srcOf e) (broadcastInDim S1600000 ![] bcast_S_S1600000 (constantI S_ 32 0#32)))
      (addi (srcOf e) (broadcastInDim S1600000 ![] bcast_S_S1600000 (constantI S_ 32 100000#32))) (srcOf e))

/-- The scatter's indices: the targets as a column. -/
def sidx (e : Edges) : (⟨S1600000x1, .i32⟩ : BufTy).Contents (Elt Ideal) :=
  broadcastInDim S1600000x1 ![0] bcast_S1600000_S1600000x1_0 (dstOf e)

/-- Neighbour sums of 64-wide features. -/
def agg64 (x : Mat 100000 64) (e : Edges) : Mat 100000 64 :=
  Host.scatterAdd (F := Ideal) scatter_S100000x64_S1600000x1_S1600000x64_1_0_0_1
    (broadcastInDim S100000x64 ![] bcast_S_S100000x64 (constant (F := Ideal) S_ .f32 0x00000000#32)) (sidx e)
    (Host.gather gather_S100000x64_S1600000x1_S1600000x64_1_0_n_n_0_1_164 x (gidx e))

/-- Neighbour sums of 128-wide features. -/
def agg128 (h : Mat 100000 128) (e : Edges) : Mat 100000 128 :=
  Host.scatterAdd (F := Ideal) scatter_S100000x128_S1600000x1_S1600000x128_1_0_0_1
    (broadcastInDim S100000x128 ![] bcast_S_S100000x128 (constant (F := Ideal) S_ .f32 0x00000000#32)) (sidx e)
    (Host.gather gather_S100000x128_S1600000x1_S1600000x128_1_0_n_n_0_1_1128 h (gidx e))

/-- The mean of the node features of each graph, the count replaced by 1 where a graph has no node. -/
def pool (h : Mat 100000 128) (g : Ids) : Mat 64 128 :=
  Host.divf (F := Ideal)
    (Host.scatterAdd (F := Ideal) scatter_S64x128_S100000x1_S100000x128_1_0_0_1
      (broadcastInDim S64x128 ![] bcast_S_S64x128 (constant (F := Ideal) S_ .f32 0x00000000#32))
      (broadcastInDim S100000x1 ![0] bcast_S100000_S100000x1_0 g) h)
    (broadcastInDim S64x128 ![0, 1] bcast_S64x1_S64x128_0_1
      (maximumf (F := Ideal)
        (Host.scatterAdd (F := Ideal) scatter_S64x1_S100000x1_S100000x1_1_0_0_1
          (broadcastInDim S64x1 ![] bcast_S_S64x1 (constant (F := Ideal) S_ .f32 0x00000000#32))
          (broadcastInDim S100000x1 ![0] bcast_S100000_S100000x1_0 g)
          (broadcastInDim S100000x1 ![] bcast_S_S100000x1 (constant (F := Ideal) S_ .f32 0x3F800000#32)))
        (broadcastInDim S64x1 ![] bcast_S_S64x1 (constant (F := Ideal) S_ .f32 0x3F800000#32))))

/-- The first layer's output. -/
def hid1 (x : Mat 100000 64) (e : Edges) (w1r : Mat 64 128) (b1 : Vec1 128) (w1o : Mat 64 128) : Mat 100000 128 :=
  conv (agg64 x e) x w1r w1o b1

/-- The second layer's output. -/
def hid2 (x : Mat 100000 64) (e : Edges) (w1r : Mat 64 128) (b1 : Vec1 128) (w1o : Mat 64 128)
    (w2r : Mat 128 128) (b2 : Vec1 128) (w2o : Mat 128 128) : Mat 100000 128 :=
  conv (agg128 (hid1 x e w1r b1 w1o) e) (hid1 x e w1r b1 w1o) w2r w2o b2

/-- The network. -/
def net (x : Mat 100000 64) (e : Edges) (g : Ids) (w1r : Mat 64 128) (b1 : Vec1 128) (w1o : Mat 64 128)
    (w2r : Mat 128 128) (b2 : Vec1 128) (w2o : Mat 128 128) (f1w : Mat 128 128) (f1b : Vec1 128) (f2w : Mat 128 50) (f2b : Vec1 50) :
    Mat 64 50 :=
  head (pool (hid2 x e w1r b1 w1o w2r b2 w2o) g) f1w f1b f2w f2b

end Cert.KernelIdeal.Whole

end
-- ==== Proof.Chain.lean ====
/-
  The kernel program's result as the network of its arguments. Between the launch and the return the buffers pass six
  boundaries: after the first stretch of host operations (neighbour sums of the features, the bias as a row), after the
  first convolution region (its output array holds the first layer), after the second stretch (neighbour sums of the
  first layer), after the second region (the second layer), after the third stretch (the pooled means, two biases as
  rows), after the head region. Each boundary's contents at the buffers the next step reads are read back, one step
  at a time, to the argument arrays as launched.
-/
import proofs.«180137_j87625922773436_1_alg».proof.Proof.Gen.KernelIdeal.Frame
import proofs.«180137_j87625922773436_1_alg».proof.Proof.Layer0
import proofs.«180137_j87625922773436_1_alg».proof.Proof.Layer1
import proofs.«180137_j87625922773436_1_alg».proof.Proof.Layer2
import proofs.«180137_j87625922773436_1_alg».proof.Proof.Whole
import Idealize.ShloMosaic.Lib.StableHlo.Run

set_option maxRecDepth 16384

noncomputable section

namespace Cert.KernelIdeal.Chain

open Cert.KernelIdeal Cert.KernelIdeal.Gen Cert.KernelIdeal.Whole
open Idealize.ShloMosaic Idealize.ShloMosaic.TcCoe Idealize.SL.Sem Idealize.ShloMosaic.StableHlo
open Cert.Spec Cert.Net

variable (m : (ℓ : Loc nD τ sig) → Buf (Elt Ideal) ℓ) (ρ : Dev nD → PrngReg) (c : Dev nD)

/-! ## After the first stretch of host operations -/

theorem a_arg0 : W1 m ρ c (Proc.devRef .tc main_arg0) = (m ((c : Thread nD τ).loc main_arg0)) := by
  show StableHlo.after hostOps0 (W0 m ρ c) (Proc.devRef .tc main_arg0) = _
  after_results <;> rfl
theorem a_arg2 : W1 m ρ c (Proc.devRef .tc main_arg2) = (m ((c : Thread nD τ).loc main_arg2)) := by
  show StableHlo.after hostOps0 (W0 m ρ c) (Proc.devRef .tc main_arg2) = _
  after_results <;> rfl
theorem a_arg3 : W1 m ρ c (Proc.devRef .tc main_arg3) = (m ((c : Thread nD τ).loc main_arg3)) := by
  show StableHlo.after hostOps0 (W0 m ρ c) (Proc.devRef .tc main_arg3) = _
  after_results <;> rfl
theorem a_arg5 : W1 m ρ c (Proc.devRef .tc main_arg5) = (m ((c : Thread nD τ).loc main_arg5)) := by
  show StableHlo.after hostOps0 (W0 m ρ c) (Proc.devRef .tc main_arg5) = _
  after_results <;> rfl
theorem a_arg6 : W1 m ρ c (Proc.devRef .tc main_arg6) = (m ((c : Thread nD τ).loc main_arg6)) := by
  show StableHlo.after hostOps0 (W0 m ρ c) (Proc.devRef .tc main_arg6) = _
  after_results <;> rfl
theorem a_arg7 : W1 m ρ c (Proc.devRef .tc main_arg7) = (m ((c : Thread nD τ).loc main_arg7)) := by
  show StableHlo.after hostOps0 (W0 m ρ c) (Proc.devRef .tc main_arg7) = _
  after_results <;> rfl
theorem a_arg8 : W1 m ρ c (Proc.devRef .tc main_arg8) = (m ((c : Thread nD τ).loc main_arg8)) := by
  show StableHlo.after hostOps0 (W0 m ρ c) (Proc.devRef .tc main_arg8) = _
  after_results <;> rfl
theorem a_arg9 : W1 m ρ c (Proc.devRef .tc main_arg9) = (m ((c : Thread nD τ).loc main_arg9)) := by
  show StableHlo.after hostOps0 (W0 m ρ c) (Proc.devRef .tc main_arg9) = _
  after_results <;> rfl
theorem a_arg10 : W1 m ρ c (Proc.devRef .tc main_arg10) = (m ((c : Thread nD τ).loc main_arg10)) := by
  show StableHlo.after hostOps0 (W0 m ρ c) (Proc.devRef .tc main_arg10) = _
  after_results <;> rfl
theorem a_arg11 : W1 m ρ c (Proc.devRef .tc main_arg11) = (m ((c : Thread nD τ).loc main_arg11)) := by
  show StableHlo.after hostOps0 (W0 m ρ c) (Proc.devRef .tc main_arg11) = _
  after_results <;> rfl
theorem a_arg12 : W1 m ρ c (Proc.devRef .tc main_arg12) = (m ((c : Thread nD τ).loc main_arg12)) := by
  show StableHlo.after hostOps0 (W0 m ρ c) (Proc.devRef .tc main_arg12) = _
  after_results <;> rfl
theorem a_v1 : W1 m ρ c (Proc.devRef .tc main_v1) = srcOf (m ((c : Thread nD τ).loc main_arg1)) := by
  show StableHlo.after hostOps0 (W0 m ρ c) (Proc.devRef .tc main_v1) = _
  after_results <;> rfl
theorem a_v3 : W1 m ρ c (Proc.devRef .tc main_v3) = dstOf (m ((c : Thread nD τ).loc main_arg1)) := by
  show StableHlo.after hostOps0 (W0 m ρ c) (Proc.devRef .tc main_v3) = _
  after_results <;> rfl
theorem a_v13 : W1 m ρ c (Proc.devRef .tc main_v13) = agg64 (m ((c : Thread nD τ).loc main_arg0)) (m ((c : Thread nD τ).loc main_arg1)) := by
  show StableHlo.after hostOps0 (W0 m ρ c) (Proc.devRef .tc main_v13) = _
  after_results <;> rfl
theorem a_v14 : W1 m ρ c (Proc.devRef .tc main_v14) = shapeCast S1x128 (m ((c : Thread nD τ).loc main_arg4)) shapeCasts_S128_S1x128 := by
  show StableHlo.after hostOps0 (W0 m ρ c) (Proc.devRef .tc main_v14) = _
  after_results <;> rfl

/-! ## After the first region -/

theorem b_v15 : W2 m ρ c (Proc.devRef .tc main_v15) = hid1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Layer0.final (V1 m ρ) c (m ((c : Thread nD τ).loc main_arg4)) (a_v14 m ρ c)).trans ?_)
  show conv (W1 m ρ c (Proc.devRef .tc main_v13)) (W1 m ρ c (Proc.devRef .tc main_arg0)) (W1 m ρ c (Proc.devRef .tc main_arg3)) (W1 m ρ c (Proc.devRef .tc main_arg5)) _ = _
  rw [a_v13, a_arg0, a_arg3, a_arg5]
  rfl
theorem b_v1 : W2 m ρ c (Proc.devRef .tc main_v1) = srcOf (m ((c : Thread nD τ).loc main_arg1)) := (W2_of_ne m ρ c main_v1 (by decide)).trans (a_v1 m ρ c)
theorem b_v3 : W2 m ρ c (Proc.devRef .tc main_v3) = dstOf (m ((c : Thread nD τ).loc main_arg1)) := (W2_of_ne m ρ c main_v3 (by decide)).trans (a_v3 m ρ c)
theorem b_arg2 : W2 m ρ c (Proc.devRef .tc main_arg2) = (m ((c : Thread nD τ).loc main_arg2)) := (W2_of_ne m ρ c main_arg2 (by decide)).trans (a_arg2 m ρ c)
theorem b_arg6 : W2 m ρ c (Proc.devRef .tc main_arg6) = (m ((c : Thread nD τ).loc main_arg6)) := (W2_of_ne m ρ c main_arg6 (by decide)).trans (a_arg6 m ρ c)
theorem b_arg7 : W2 m ρ c (Proc.devRef .tc main_arg7) = (m ((c : Thread nD τ).loc main_arg7)) := (W2_of_ne m ρ c main_arg7 (by decide)).trans (a_arg7 m ρ c)
theorem b_arg8 : W2 m ρ c (Proc.devRef .tc main_arg8) = (m ((c : Thread nD τ).loc main_arg8)) := (W2_of_ne m ρ c main_arg8 (by decide)).trans (a_arg8 m ρ c)
theorem b_arg9 : W2 m ρ c (Proc.devRef .tc main_arg9) = (m ((c : Thread nD τ).loc main_arg9)) := (W2_of_ne m ρ c main_arg9 (by decide)).trans (a_arg9 m ρ c)
theorem b_arg10 : W2 m ρ c (Proc.devRef .tc main_arg10) = (m ((c : Thread nD τ).loc main_arg10)) := (W2_of_ne m ρ c main_arg10 (by decide)).trans (a_arg10 m ρ c)
theorem b_arg11 : W2 m ρ c (Proc.devRef .tc main_arg11) = (m ((c : Thread nD τ).loc main_arg11)) := (W2_of_ne m ρ c main_arg11 (by decide)).trans (a_arg11 m ρ c)
theorem b_arg12 : W2 m ρ c (Proc.devRef .tc main_arg12) = (m ((c : Thread nD τ).loc main_arg12)) := (W2_of_ne m ρ c main_arg12 (by decide)).trans (a_arg12 m ρ c)

/-! ## After the second stretch of host operations -/

theorem c_v15 : W3 m ρ c (Proc.devRef .tc main_v15) = (hid1 (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v15) = _
  after_results; exact b_v15 m ρ c
theorem c_v25 : W3 m ρ c (Proc.devRef .tc main_v25) = agg128 (hid1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v25) = _
  after_results
  rw [b_v15, b_v1, b_v3]
  rfl
theorem c_v26 : W3 m ρ c (Proc.devRef .tc main_v26) = shapeCast S1x128 (m ((c : Thread nD τ).loc main_arg7)) shapeCasts_S128_S1x128 := by
  show StableHlo.after hostOps1 (W2 m ρ c) (Proc.devRef .tc main_v26) = _
  after_results
  rw [b_arg7]
  rfl
theorem c_arg2 : W3 m ρ c (Proc.devRef .tc main_arg2) = (m ((c : Thread nD τ).loc main_arg2)) := by
  show StableHlo.after hostOps1 (W2 m ρ c) (Proc.devRef .tc main_arg2) = _
  after_results; exact b_arg2 m ρ c
theorem c_arg6 : W3 m ρ c (Proc.devRef .tc main_arg6) = (m ((c : Thread nD τ).loc main_arg6)) := by
  show StableHlo.after hostOps1 (W2 m ρ c) (Proc.devRef .tc main_arg6) = _
  after_results; exact b_arg6 m ρ c
theorem c_arg8 : W3 m ρ c (Proc.devRef .tc main_arg8) = (m ((c : Thread nD τ).loc main_arg8)) := by
  show StableHlo.after hostOps1 (W2 m ρ c) (Proc.devRef .tc main_arg8) = _
  after_results; exact b_arg8 m ρ c
theorem c_arg9 : W3 m ρ c (Proc.devRef .tc main_arg9) = (m ((c : Thread nD τ).loc main_arg9)) := by
  show StableHlo.after hostOps1 (W2 m ρ c) (Proc.devRef .tc main_arg9) = _
  after_results; exact b_arg9 m ρ c
theorem c_arg10 : W3 m ρ c (Proc.devRef .tc main_arg10) = (m ((c : Thread nD τ).loc main_arg10)) := by
  show StableHlo.after hostOps1 (W2 m ρ c) (Proc.devRef .tc main_arg10) = _
  after_results; exact b_arg10 m ρ c
theorem c_arg11 : W3 m ρ c (Proc.devRef .tc main_arg11) = (m ((c : Thread nD τ).loc main_arg11)) := by
  show StableHlo.after hostOps1 (W2 m ρ c) (Proc.devRef .tc main_arg11) = _
  after_results; exact b_arg11 m ρ c
theorem c_arg12 : W3 m ρ c (Proc.devRef .tc main_arg12) = (m ((c : Thread nD τ).loc main_arg12)) := by
  show StableHlo.after hostOps1 (W2 m ρ c) (Proc.devRef .tc main_arg12) = _
  after_results; exact b_arg12 m ρ c

/-! ## After the second region -/

theorem d_v27 : W4 m ρ c (Proc.devRef .tc main_v27) = (hid2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 5).trans ((Layer1.final (V3 m ρ) c (m ((c : Thread nD τ).loc main_arg7)) (c_v26 m ρ c)).trans ?_)
  show conv (W3 m ρ c (Proc.devRef .tc main_v25)) (W3 m ρ c (Proc.devRef .tc main_v15)) (W3 m ρ c (Proc.devRef .tc main_arg6)) (W3 m ρ c (Proc.devRef .tc main_arg8)) _ = _
  rw [c_v25, c_v15, c_arg6, c_arg8]
  rfl
theorem d_arg2 : W4 m ρ c (Proc.devRef .tc main_arg2) = (m ((c : Thread nD τ).loc main_arg2)) := (W4_of_ne m ρ c main_arg2 (by decide)).trans (c_arg2 m ρ c)
theorem d_arg9 : W4 m ρ c (Proc.devRef .tc main_arg9) = (m ((c : Thread nD τ).loc main_arg9)) := (W4_of_ne m ρ c main_arg9 (by decide)).trans (c_arg9 m ρ c)
theorem d_arg10 : W4 m ρ c (Proc.devRef .tc main_arg10) = (m ((c : Thread nD τ).loc main_arg10)) := (W4_of_ne m ρ c main_arg10 (by decide)).trans (c_arg10 m ρ c)
theorem d_arg11 : W4 m ρ c (Proc.devRef .tc main_arg11) = (m ((c : Thread nD τ).loc main_arg11)) := (W4_of_ne m ρ c main_arg11 (by decide)).trans (c_arg11 m ρ c)
theorem d_arg12 : W4 m ρ c (Proc.devRef .tc main_arg12) = (m ((c : Thread nD τ).loc main_arg12)) := (W4_of_ne m ρ c main_arg12 (by decide)).trans (c_arg12 m ρ c)

/-! ## After the third stretch of host operations -/

set_option maxHeartbeats 4000000 in
theorem e_v38 : W5 m ρ c (Proc.devRef .tc main_v38) = pool (hid2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  show StableHlo.after hostOps2 (W4 m ρ c) (Proc.devRef .tc main_v38) = _
  after_results_simp
  rw [d_v27, d_arg2]
  rfl
theorem e_v39 : W5 m ρ c (Proc.devRef .tc main_v39) = shapeCast S1x128 (m ((c : Thread nD τ).loc main_arg10)) shapeCasts_S128_S1x128 := by
  show StableHlo.after hostOps2 (W4 m ρ c) (Proc.devRef .tc main_v39) = _
  after_results
  rw [d_arg10]
  rfl
theorem e_v40 : W5 m ρ c (Proc.devRef .tc main_v40) = shapeCast S1x50 (m ((c : Thread nD τ).loc main_arg12)) shapeCasts_S50_S1x50 := by
  show StableHlo.after hostOps2 (W4 m ρ c) (Proc.devRef .tc main_v40) = _
  after_results
  rw [d_arg12]
  rfl
theorem e_arg9 : W5 m ρ c (Proc.devRef .tc main_arg9) = (m ((c : Thread nD τ).loc main_arg9)) := by
  show StableHlo.after hostOps2 (W4 m ρ c) (Proc.devRef .tc main_arg9) = _
  after_results; exact d_arg9 m ρ c
theorem e_arg11 : W5 m ρ c (Proc.devRef .tc main_arg11) = (m ((c : Thread nD τ).loc main_arg11)) := by
  show StableHlo.after hostOps2 (W4 m ρ c) (Proc.devRef .tc main_arg11) = _
  after_results; exact d_arg11 m ρ c

/-! ## After the head region: the result -/

/-- The result buffer ends holding the network of the argument arrays as launched. -/
theorem result : W6 m ρ c (Proc.devRef .tc main_v41) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((Layer2.final (V5 m ρ) c (m ((c : Thread nD τ).loc main_arg10)) (m ((c : Thread nD τ).loc main_arg12)) (e_v39 m ρ c) (e_v40 m ρ c)).trans ?_)
  show head (W5 m ρ c (Proc.devRef .tc main_v38)) (W5 m ρ c (Proc.devRef .tc main_arg9)) _ (W5 m ρ c (Proc.devRef .tc main_arg11)) _ = _
  rw [e_v38, e_arg9, e_arg11]
  rfl

end Cert.KernelIdeal.Chain

end
-- ==== Proof.RefNet.lean ====
/-
  The reference program's result is the network of its arguments: its host operations, composed, are the gather and
  scatter-add of the neighbour sums, the two layers max (A · Wr + X · Wo + b, 0), the per-graph means and the head with
  its row-wise softmax, operation for operation as the network spells them.
-/
import proofs.«180137_j87625922773436_1_alg».proof.Proof.Gen.ReferenceIdeal.Run
import proofs.«180137_j87625922773436_1_alg».proof.Proof.Whole

set_option maxRecDepth 16384

noncomputable section

namespace Cert.ReferenceIdeal.RefValue

open Cert.ReferenceIdeal Idealize.ShloMosaic Idealize.ShloMosaic.TcCoe Idealize.SL.Sem

theorem result_eq (m' : (ℓ : Loc nD τ sig) → Buf (Elt Ideal) ℓ) (c : Dev nD) :
    Cert.ReferenceIdeal.Value.res_main_v68 (F := Ideal) m' c
      = Cert.KernelIdeal.Whole.net (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))
          (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
          (m' ((c.tc : Thread nD τ).loc main_arg11)) (m' ((c.tc : Thread nD τ).loc main_arg12)) := by
  unfold Cert.ReferenceIdeal.Value.res_main_v68
  rfl

end Cert.ReferenceIdeal.RefValue

end
-- ==== Proof.lean ====
/-
  The kernel computes a two-layer graph convolution, a per-graph mean and a classifier head with a softmax; the
  convolution layers and the head run as three tiled kernels, the neighbour sums and the means as host operations
  between them. The reference computes the same network with host operations only. On the extended reals the two
  agree without any algebra: a tile of rows of max (A · Wr + X · Wo + b, 0) depends only on the same rows of A and X,
  the twenty row tiles of a layer cover its output, and the head's one tile is the whole array; the narrowing of the
  matrix operands to bf16 is the identity there. So both programs end with the network of the argument arrays
  (`Whole.net`): the kernel's result buffer by reading the chain of its segment boundaries back to the arguments
  (`Chain.result`), the reference's by composing its operations (`RefValue.result_eq`).
-/
import proofs.«180137_j87625922773436_1_alg».proof.Defs
import proofs.«180137_j87625922773436_1_alg».proof.Proof.Gen.Kernel
import proofs.«180137_j87625922773436_1_alg».proof.Proof.Gen.Kernel.Frame
import proofs.«180137_j87625922773436_1_alg».proof.Proof.Gen.KernelIdeal
import proofs.«180137_j87625922773436_1_alg».proof.Proof.Gen.KernelIdeal.Frame
import proofs.«180137_j87625922773436_1_alg».proof.Proof.Gen.ReferenceIdeal
import proofs.«180137_j87625922773436_1_alg».proof.Proof.Gen.ReferenceIdeal.Run
import proofs.«180137_j87625922773436_1_alg».proof.Proof.Gen.Pre_finite_inputs
import proofs.«180137_j87625922773436_1_alg».proof.Proof.KRun
import proofs.«180137_j87625922773436_1_alg».proof.Proof.Chain
import proofs.«180137_j87625922773436_1_alg».proof.Proof.RefNet

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel program runs and leaves its arguments as launched. -/
theorem frame_k : Cert.frame_Kernel := fun m ρ _ => Cert.Kernel.Gen.frame m ρ

/-- So does the kernel program on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) argument arrays. -/
theorem algebraic : Cert.algebraic_KernelIdeal_ReferenceIdeal := by
  intro m ρ m' ρ' _ hagree
  refine ⟨fun c => Cert.KernelIdeal.Gen.W6 m ρ c (Proc.devRef .tc Cert.KernelIdeal.main_v41),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  refine Eq.trans ?_ (Cert.KernelIdeal.Chain.result m ρ c).symm
  obtain ⟨h0, h1, h2, h3, h4, h5, h6, h7, h8, h9, h10, h11, h12⟩ := hagree c
  rw [h0, h1, h2, h3, h4, h5, h6, h7, h8, h9, h10, h11, h12]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
